-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S128x128 .f32) (main_arg17 : FVec F S128x128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x256 .f32 := Host.absf main_arg12
  let main_cst_18 : FVec F S_ .f32 := constant S_ .f32 0x7F800000#32
  let main_v50 : FVec F S384x256 .f32 := broadcastInDim S384x256 ![] bcast_S_S384x256 main_cst_18
  fn_part3 (F := F) main_arg13 main_arg14 main_arg15 main_arg16 main_arg17 main_arg18 main_arg19 main_v48 main_v49 main_v50

def fn_part1 {F : FTy → Type} [FloatOps F] (main_arg6 : FVec F S256x128 .f32) (main_arg7 : FVec F S128 .f32) (main_arg8 : FVec F S256x256 .f32) (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S600000x128 .f32) (main_arg2 : IVec S600000 32) (main_arg3 : IVec S600000 32) (main_arg4 : FVec F S384x256 .f32) (main_arg5 : FVec F S256 .f32) (main_arg6 : FVec F S256x128 .f32) (main_arg7 : FVec F S128 .f32) (main_arg8 : FVec F S256x256 .f32) (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S_ : Shape := ⟨0, ![]⟩
abbrev S600000x1 : Shape := ⟨2, ![600000, 1]⟩
abbrev S1x256 : Shape := ⟨2, ![1, 256]⟩
abbrev S1x128 : Shape := ⟨2, ![1, 128]⟩
abbrev S2000x128 : Shape := ⟨2, ![2000, 128]⟩
abbrev S2000x384 : Shape := ⟨2, ![2000, 384]⟩
abbrev S2000x256 : Shape := ⟨2, ![2000, 256]⟩
abbrev S2000 : Shape := ⟨1, ![2000]⟩
abbrev S2000x1 : Shape := ⟨2, ![2000, 1]⟩

abbrev nBuf : Space → Nat
  | .hbm => 62
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S384x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S50000x128, .bf16⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .bf16⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .bf16⟩
  | .hbm, ⟨39, _⟩ => ⟨S384x256, .bf16⟩
  | .hbm, ⟨40, _⟩ => ⟨S256x128, .bf16⟩
  | .hbm, ⟨41, _⟩ => ⟨S384x256, .bf16⟩
  | .hbm, ⟨42, _⟩ => ⟨S256x128, .bf16⟩
  | .hbm, ⟨43, _⟩ => ⟨S256x256, .bf16⟩
  | .hbm, ⟨44, _⟩ => ⟨S256x128, .bf16⟩
  | .hbm, ⟨45, _⟩ => ⟨S128x128, .bf16⟩
  | .hbm, ⟨46, _⟩ => ⟨S128x128, .bf16⟩
  | .hbm, ⟨47, _⟩ => ⟨S1x256, .f32⟩
  | .hbm, ⟨48, _⟩ => ⟨S1x128, .f32⟩
  | .hbm, ⟨49, _⟩ => ⟨S1x256, .f32⟩
  | .hbm, ⟨50, _⟩ => ⟨S1x128, .f32⟩
  | .hbm, ⟨51, _⟩ => ⟨S1x256, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x128, .f32⟩
  | .local _ .vmem, ⟨5, _⟩ => ⟨S2000x128, .f32⟩
  | .local _ .vmem, ⟨6, _⟩ => ⟨S384x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S384x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S256x256, .bf16⟩
  | .local _ .vmem, ⟨26, _⟩ => ⟨S1x256, .f32⟩
  | .local _ .vmem, ⟨27, _⟩ => ⟨S256x128, .bf16⟩
  | .local _ .vmem, ⟨28, _⟩ => ⟨S1x128, .f32⟩
  | .local _ .vmem, ⟨29, _⟩ => ⟨S128x128, .bf16⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31_0 : Ref sig .tc := ⟨.hbm, 55, rfl⟩
abbrev main_v31_1 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33

abbrev nD : Nat := 1
abbrev τ : Topo := Topo.v7x

variable {F : FTy → Type} [FloatOps F]

abbrev grid0 : Pipeline.Grid := ⟨1, ![300], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S2000 : S2000x128.Reduces [1] S2000
  shapeCasts_S2000_S2000x1 : S2000.ShapeCasts S2000x1
  broadcasts_S2000x1_S2000x128 : S2000x1.Broadcasts S2000x128
  bcast_S_S50000x128 : S_.BroadcastsInDim S50000x128 (![] : Fin 0 → Fin S50000x128.rank)
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S50000x128_S600000x1_S600000x128_1_0_n_n_0_1_1128_wf : GatherDims.WF S50000x128 S600000x1 S600000x128 [1] [0] [] [0] [] 1 ![1, 128]
  dot_S2000x384_S384x256_S2000x256_1_0_0_1_n_n_wf : DotDims.WF S2000x384 S384x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  scatter_S50000x128_S600000x1_S600000x128_1_0_0_1_wf : ScatterDims.WF S50000x128 S600000x1 S600000x128 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S600000x128.size a
  hwx0_0 : ∀ i : grid0.Coords, EltTy.bits .bf16 = 32 ∨ (Rect.block (s := S600000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S600000x128.size a
  hwx0_1 : ∀ i : grid0.Coords, EltTy.bits .bf16 = 32 ∨ (Rect.block (s := S600000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S600000x128.size a
  hwx0_2 : ∀ i : grid0.Coords, EltTy.bits .f32 = 32 ∨ (Rect.block (s := S600000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .bf16 = 32 ∨ (Rect.block (s := S384x256) S384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x256.size a ≤ S384x256.size a
  hwx0_7 : ∀ i : grid0.Coords, EltTy.bits .bf16 = 32 ∨ (Rect.block (s := S384x256) S384x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S600000x128.size a
  hwx0_14 : ∀ i : grid0.Coords, EltTy.bits .f32 = 32 ∨ (Rect.block (s := S600000x128) S2000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S600000x128.size a
  hwx0_15 : ∀ i : grid0.Coords, EltTy.bits .f32 = 32 ∨ (Rect.block (s := S600000x128) S2000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v7) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S384x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v31_0) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v31_1) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S_ : Shape := ⟨0, ![]⟩
abbrev S600000x1 : Shape := ⟨2, ![600000, 1]⟩
abbrev S600000x384 : Shape := ⟨2, ![600000, 384]⟩
abbrev S600000x256 : Shape := ⟨2, ![600000, 256]⟩
abbrev S1x256 : Shape := ⟨2, ![1, 256]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S600000x128, .f32⟩
  | 2 => ⟨S600000, .i32⟩
  | 3 => ⟨S600000, .i32⟩
  | 4 => ⟨S384x256, .f32⟩
  | 5 => ⟨S256, .f32⟩
  | 6 => ⟨S256x128, .f32⟩
  | 7 => ⟨S128, .f32⟩
  | 8 => ⟨S256x256, .f32⟩
  | 9 => ⟨S256, .f32⟩
  | 10 => ⟨S256x128, .f32⟩
  | 11 => ⟨S128, .f32⟩
  | 12 => ⟨S384x256, .f32⟩
  | 13 => ⟨S256, .f32⟩
  | 14 => ⟨S256x128, .f32⟩
  | 15 => ⟨S128, .f32⟩
  | 16 => ⟨S128x128, .f32⟩
  | 17 => ⟨S128x128, .f32⟩
  | 18 => ⟨S128, .f32⟩
  | 19 => ⟨S128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S600000x384, .f32⟩
  | 39 => ⟨S600000x256, .f32⟩
  | 40 => ⟨S1x256, .f32⟩
  | 41 => ⟨S600000x256, .f32⟩
  | 42 => ⟨S600000x256, .f32⟩
  | 43 => ⟨S_, .f32⟩
  | 44 => ⟨S600000x256, .f32⟩
  | 45 => ⟨S600000x256, .f32⟩
  | 46 => ⟨S600000x128, .f32⟩
  | 47 => ⟨S1x128, .f32⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S50000x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S_, .f32⟩
  | 86 => ⟨S50000x1, .f32⟩
  | 87 => ⟨S50000x1, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S600000x256, .f32⟩
  | 98 => ⟨S1x256, .f32⟩
  | 99 => ⟨S600000x256, .f32⟩
  | 100 => ⟨S600000x256, .f32⟩
  | 101 => ⟨S_, .f32⟩
  | 102 => ⟨S600000x256, .f32⟩
  | 103 => ⟨S600000x256, .f32⟩
  | 104 => ⟨S600000x128, .f32⟩
  | 105 => ⟨S1x128, .f32⟩
  | 106 => ⟨S600000x128, .f32⟩
  | 107 => ⟨S600000x128, .f32⟩
  | 108 => ⟨S600000x128, .f32⟩
  | 109 => ⟨S600000x128, .f32⟩
  | 110 => ⟨S_, .f32⟩
  | 111 => ⟨S600000, .f32⟩
  | 112 => ⟨S600000x1, .f32⟩
  | 113 => ⟨S_, .f32⟩
  | 114 => ⟨S600000x1, .f32⟩
  | 115 => ⟨S600000x1, .f32⟩
  | 116 => ⟨S600000x128, .f32⟩
  | 117 => ⟨S600000x128, .f32⟩
  | 118 => ⟨S600000x128, .f32⟩
  | 119 => ⟨S_, .f32⟩
  | 120 => ⟨S600000, .f32⟩
  | 121 => ⟨S600000x1, .f32⟩
  | 122 => ⟨S_, .f32⟩
  | 123 => ⟨S600000x1, .f32⟩
  | 124 => ⟨S600000x1, .f32⟩
  | 125 => ⟨S600000x128, .f32⟩
  | 126 => ⟨S600000x128, .f32⟩
  | 127 => ⟨S_, .f32⟩
  | _ => ⟨S50000x128, .f32⟩

abbrev hbmTy0_1 (i : Nat) : BufTy := match i % 128 with
  | 0 => ⟨S600000x1, .f32⟩
  | 1 => ⟨S600000x1, .f32⟩
  | 2 => ⟨S600000x1, .f32⟩
  | 3 => ⟨S600000x128, .f32⟩
  | 4 => ⟨S600000x128, .f32⟩
  | 5 => ⟨S1x128, .f32⟩
  | 6 => ⟨S600000x128, .f32⟩
  | 7 => ⟨S600000x128, .f32⟩
  | 8 => ⟨S1x128, .f32⟩
  | 9 => ⟨S600000x128, .f32⟩
  | 10 => ⟨S600000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_cst : Ref sig .tc := ⟨.hbm, 43, rfl⟩
abbrev main_call0_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_cst : Ref sig .tc := ⟨.hbm, 59, rfl⟩
abbrev main_call1_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_8 : Ref sig .tc := ⟨.hbm, 110, rfl⟩
abbrev main_v74 : Ref sig .tc := ⟨.hbm, 111, rfl⟩
abbrev main_v75 : Ref sig .tc := ⟨.hbm, 112, rfl⟩
abbrev main_cst_9 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_10 : Ref sig .tc := ⟨.hbm, 119, rfl⟩
abbrev main_v81 : Ref sig .tc := ⟨.hbm, 120, rfl⟩
abbrev main_v82 : Ref sig .tc := ⟨.hbm, 121, rfl⟩
abbrev main_cst_11 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_12 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S600000x128_S600000_d1 : S600000x128.ReducesTo [1] S600000
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  gather_S50000x128_S600000x1_S600000x128_1_0_n_n_0_1_1128_wf : GatherDims.WF S50000x128 S600000x1 S600000x128 [1] [0] [] [0] [] 1 ![1, 128]
  dot_S600000x384_S384x256_S600000x256_1_0_0_1_n_n_wf : DotDims.WF S600000x384 S384x256 S600000x256 [1] [0] [0] [1] [] []
  dot_S600000x256_S256x128_S600000x128_1_0_0_1_n_n_wf : DotDims.WF S600000x256 S256x128 S600000x128 [1] [0] [0] [1] [] []
  scatter_S50000x128_S600000x1_S600000x128_1_0_0_1_wf : ScatterDims.WF S50000x128 S600000x1 S600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x256_S600000x256_1_0_0_1_n_n : DotDims S600000x384 S384x256 S600000x256 where
  lhsContracting := [1]
  rhsContracting := [0]
  lhsNonContracting := [0]
  rhsNonContracting := [1]
  lhsBatch := []
  rhsBatch := []
  wf := dot_S600000x384_S384x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf

class Facts : Prop extends Facts₀ where

variable [Facts]
-- ==== Proof.RefRead.lean ====
/-
  The reference's run read one operation at a time: this module only brings the generated
  read-at-an-index lemmas of the reference into scope for the modules that state what each
  stage holds at an index.
-/
import proofs.«112847_j32109175505235_2_alg».proof.Proof.Gen.ReferenceIdeal.Read
-- ==== Proof.KernelRun.lean ====
/-
  The idealized kernel's run with its two results named.

  @main is four segments: the host operations before the first region, the edge region, the host operations between
  the regions (the scatter-add), the node region. The contents of every buffer at each boundary are a fold from the
  launch memory; after the last segment every buffer holds the last boundary's contents. Here the run is stated
  keeping, besides the unchanged arguments, the two result buffers at those contents: the node result is the node
  region's output array after all of its write-backs, and the edge result, which nothing after the edge region writes,
  is the edge region's second output array after all of its write-backs.
-/
import proofs.«112847_j32109175505235_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_last : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_v31_1) = W4 m ρ c (Proc.devRef .tc main_v31_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       h c _ (mem_uc main_v31_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)

end Cert.KernelIdeal.ValueRun

end
-- ==== Proof.LibRowSpec.lean ====
/-
  The two row-wise building blocks of a transformer layer, over the extended reals.

  A layer normalisation acts on one row of `C` numbers: subtract the row's mean, scale by the reciprocal square
  root of the mean squared deviation plus a small constant, then apply a per-lane gain and offset. An affine map takes
  a row `h` of `K` numbers to the `N` numbers `∑ k, h k * W k q + b q`. The divisor of the mean and the small constant
  are parameters (the programs give them as float literals, which are never evaluated). A query / key / value row is
  an affine map of a normalised row; the row after the attention block is
  `x2 = x + (agg · Wo + bo)`, then `x2 + (max (LN(x2) · W1 + b1) 0 · W2 + b2)`.
-/
import Mathlib
import Idealize.ShloMosaic.PureOps.Ideal

noncomputable section

open scoped BigOperators

namespace Cert.LibRowSpec

open Idealize.ShloMosaic

variable {C K N J : Nat}

/-- The float literal `128.0`, the divisor of a row's mean (never evaluated: both programs spell the same word). -/
abbrev lit128 : EReal := Ideal.ofBits .f32 0x43000000#32

/-- The float literal nearest to `1e-5`, the constant under the reciprocal square root. -/
abbrev litEps : EReal := Ideal.ofBits .f32 0x3727C5AC#32

/-- The float literal `0.0`. -/
abbrev litZero : EReal := Ideal.ofBits .f32 0x00000000#32

/-- The mean of a row: its sum divided by `n`. -/
def mean (n : EReal) (x : Fin C → EReal) : EReal := Ideal.div (∑ k, x k) n

/-- The row minus its mean. -/
def centred (n : EReal) (x : Fin C → EReal) : Fin C → EReal := fun k => x k - mean n x

/-- Layer normalisation of one row, with gain `g` and offset `b`. -/
def lnRow (n eps : EReal) (x g b : Fin C → EReal) : Fin C → EReal := fun k =>
  centred n x k * Ideal.rsqrt (mean n (fun j => centred n x j * centred n x j) + eps) * g k + b k

/-- An affine map of one row. -/
def affRow (h : Fin K → EReal) (W : Fin K → Fin N → EReal) (b : Fin N → EReal) : Fin N → EReal :=
  fun q => (∑ k, h k * W k q) + b q

/-- A projected row: an affine map of the normalised row. -/
def projRow (n eps : EReal) (x g be : Fin C → EReal) (W : Fin C → Fin N → EReal) (b : Fin N → EReal) : Fin N → EReal :=
  affRow (lnRow n eps x g be) W b

/-- The residual row after the attention block's output projection. -/
def residRow (x : Fin N → EReal) (agg : Fin K → EReal) (Wo : Fin K → Fin N → EReal) (bo : Fin N → EReal) : Fin N → EReal :=
  fun q => x q + affRow agg Wo bo q

/-- The feed-forward block on a row `y`: `y + (max (LN(y) · W1 + b1) 0 · W2 + b2)`. -/
def ffnRow (n eps zero : EReal) (y g be : Fin C → EReal) (W1 : Fin C → Fin J → EReal) (b1 : Fin J → EReal)
    (W2 : Fin J → Fin C → EReal) (b2 : Fin C → EReal) : Fin C → EReal :=
  fun q => y q + affRow (fun j => max (affRow (lnRow n eps y g be) W1 b1 j) zero) W2 b2 q

end Cert.LibRowSpec

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibHostLayer.lean ====
/-
  A layer normalisation and an affine map as a host program spells them, read row by row.

  The host normalises every row of `X : [R, C]` with whole-array operations: a sum along the lanes broadcast back as a
  column, a division by a scalar literal broadcast to the column, the column broadcast over the lanes, and the gain and
  offset vectors `[C]` broadcast first to one row `[1, C]` and then over the rows. Read at row `r` and lane `k` this is
  the layer normalisation of row `r`. An affine map is the product with `W : [K, N]` plus the offset vector broadcast
  the same way; read at `(r, q)` it is the affine map of row `r`. Nothing here needs finiteness: only `0 + s = s`.
-/
import Mathlib
import Idealize.ShloMosaic.PureOps.Ideal
import Idealize.ShloMosaic.PureOps.Ideal.Laws
import Idealize.ShloMosaic.Lib.Pipeline.Value
import Idealize.ShloMosaic.Lib.ValueIdx
import proofs.«112847_j32109175505235_2_alg».proof.Proof.LibRowSpec
import proofs.«112847_j32109175505235_2_alg».proof.Proof.LibDotRows
import proofs.«112847_j32109175505235_2_alg».proof.Proof.LibRowReduce

noncomputable section

open scoped BigOperators

namespace Cert.LibHostLayer

open Idealize.ShloMosaic Idealize.ShloMosaic.ValueIdx Cert.LibRowSpec

variable {α : Type} {R C K N : Nat}

/-! ## The five broadcasts read at an index -/

/-- A vector `[R]` broadcast to a column `[R, 1]` reads its entry `r`. -/
theorem vec_col_apply (v : (⟨1, ![R]⟩ : Shape).Idx → α)
    (h : (⟨1, ![R]⟩ : Shape).BroadcastsInDim ⟨2, ![R, 1]⟩ (![0] : Fin 1 → Fin 2)) (r : Fin R) :
    broadcastInDim (s := (⟨1, ![R]⟩ : Shape)) ⟨2, ![R, 1]⟩ (![0] : Fin 1 → Fin 2) h v (ix2 r (0 : Fin 1)) = v (ix1 r) := by
  refine broadcastInDim_apply _ h v _ (ix1 r) fun a => ?_
  match a with
  | ⟨0, _⟩ =>
    show r.val = if R = 1 then 0 else r.val
    split
    · have := r.isLt; omega
    · rfl

/-- A column `[R, 1]` broadcast over the lanes reads its entry `r`. -/
theorem col_mat_apply (v : (⟨2, ![R, 1]⟩ : Shape).Idx → α)
    (h : (⟨2, ![R, 1]⟩ : Shape).BroadcastsInDim ⟨2, ![R, C]⟩ (![0, 1] : Fin 2 → Fin 2)) (r : Fin R) (c : Fin C) :
    broadcastInDim (s := (⟨2, ![R, 1]⟩ : Shape)) ⟨2, ![R, C]⟩ (![0, 1] : Fin 2 → Fin 2) h v (ix2 r c) = v (ix2 r (0 : Fin 1)) := by
  refine broadcastInDim_apply _ h v _ (ix2 r (0 : Fin 1)) fun a => ?_
  match a with
  | ⟨0, _⟩ =>
    show r.val = if R = 1 then 0 else r.val
    split
    · have := r.isLt; omega
    · rfl
  | ⟨1, _⟩ => rfl

/-- A vector `[C]` broadcast to one row `[1, C]` reads its entry `c`. -/
theorem vec_row_apply (v : (⟨1, ![C]⟩ : Shape).Idx → α)
    (h : (⟨1, ![C]⟩ : Shape).BroadcastsInDim ⟨2, ![1, C]⟩ (![1] : Fin 1 → Fin 2)) (c : Fin C) :
    broadcastInDim (s := (⟨1, ![C]⟩ : Shape)) ⟨2, ![1, C]⟩ (![1] : Fin 1 → Fin 2) h v (ix2 (0 : Fin 1) c) = v (ix1 c) := by
  refine broadcastInDim_apply _ h v _ (ix1 c) fun a => ?_
  match a with
  | ⟨0, _⟩ =>
    show c.val = if C = 1 then 0 else c.val
    split
    · have := c.isLt; omega
    · rfl

/-- One row `[1, C]` broadcast over `R` rows reads, at `(r, c)`, its entry `c`. -/
theorem row_mat_apply (v : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim (s := (⟨2, ![1, C]⟩ : Shape)) ⟨2, ![R, C]⟩ (![0, 1] : Fin 2 → Fin 2) h v (ix2 r c) = v (ix2 (0 : Fin 1) c) := by
  refine broadcastInDim_apply _ h v _ (ix2 (0 : Fin 1) c) fun a => ?_
  match a with
  | ⟨0, _⟩ => rfl
  | ⟨1, _⟩ =>
    show c.val = if C = 1 then 0 else c.val
    split
    · have := c.isLt; omega
    · rfl

/-- A scalar broadcast to any shape reads the scalar. -/
theorem scalar_apply {t : Shape} (v : (⟨0, ![]⟩ : Shape).Idx → α) (dims : Fin 0 → Fin t.rank)
    (h : (⟨0, ![]⟩ : Shape).BroadcastsInDim t dims) (j : t.Idx) :
    broadcastInDim (s := (⟨0, ![]⟩ : Shape)) t dims h v j = v ix0 :=
  broadcastInDim_apply _ h v j ix0 fun a => a.elim0

/-! ## The host's layer normalisation -/

/-- The shape relations the host's layer normalisation of `[R, C]` cites. -/
structure NormRecs (R C : Nat) : Prop where
  sum : (⟨2, ![R, C]⟩ : Shape).ReducesTo [1] (⟨1, ![R]⟩ : Shape)
  sum' : (⟨2, ![R, C]⟩ : Shape).Reduces [1] (⟨1, ![R]⟩ : Shape)
  unit : 0 < (⟨0, ![]⟩ : Shape).numel
  vecCol : (⟨1, ![R]⟩ : Shape).BroadcastsInDim ⟨2, ![R, 1]⟩ (![0] : Fin 1 → Fin 2)
  scalarCol : (⟨0, ![]⟩ : Shape).BroadcastsInDim ⟨2, ![R, 1]⟩ (![] : Fin 0 → Fin 2)
  colMat : (⟨2, ![R, 1]⟩ : Shape).BroadcastsInDim ⟨2, ![R, C]⟩ (![0, 1] : Fin 2 → Fin 2)

/-- The shape relations of a vector `[C]` broadcast over the rows of `[R, C]` through `[1, C]`. -/
structure LaneRecs (R C : Nat) : Prop where
  vecRow : (⟨1, ![C]⟩ : Shape).BroadcastsInDim ⟨2, ![1, C]⟩ (![1] : Fin 1 → Fin 2)
  rowMat : (⟨2, ![1, C]⟩ : Shape).BroadcastsInDim ⟨2, ![R, C]⟩ (![0, 1] : Fin 2 → Fin 2)

variable (hn : NormRecs R C) (hl : LaneRecs R C) (wn we : BitVec 32)

/-- Every row's mean, as a column: the lane sum from zero divided by the literal `wn`. -/
def hostMean (X : FVec Ideal ⟨2, ![R, C]⟩ .f32) : FVec Ideal ⟨2, ![R, 1]⟩ .f32 :=
  Host.divf (broadcastInDim (s := (⟨1, ![R]⟩ : Shape)) ⟨2, ![R, 1]⟩ (![0] : Fin 1 → Fin 2) hn.vecCol
      (Host.reduceAdd X (constant (⟨0, ![]⟩ : Shape) .f32 0x00000000#32) hn.sum hn.unit))
    (broadcastInDim (s := (⟨0, ![]⟩ : Shape)) ⟨2, ![R, 1]⟩ (![] : Fin 0 → Fin 2) hn.scalarCol (constant (⟨0, ![]⟩ : Shape) .f32 wn))

/-- The array minus its rows' means. -/
def hostCentred (X : FVec Ideal ⟨2, ![R, C]⟩ .f32) : FVec Ideal ⟨2, ![R, C]⟩ .f32 :=
  subf X (broadcastInDim (s := (⟨2, ![R, 1]⟩ : Shape)) ⟨2, ![R, C]⟩ (![0, 1] : Fin 2 → Fin 2) hn.colMat (hostMean hn wn X))

/-- Every row's scale, as a column: the reciprocal square root of the mean squared deviation plus the literal `we`. -/
def hostScale (X : FVec Ideal ⟨2, ![R, C]⟩ .f32) : FVec Ideal ⟨2, ![R, 1]⟩ .f32 :=
  Host.rsqrt (addf (hostMean hn wn (mulf (hostCentred hn wn X) (hostCentred hn wn X)))
    (broadcastInDim (s := (⟨0, ![]⟩ : Shape)) ⟨2, ![R, 1]⟩ (![] : Fin 0 → Fin 2) hn.scalarCol (constant (⟨0, ![]⟩ : Shape) .f32 we)))

/-- A lane vector over all rows. -/
def hostLanes (v : FVec Ideal ⟨1, ![C]⟩ .f32) : FVec Ideal ⟨2, ![R, C]⟩ .f32 :=
  broadcastInDim (s := (⟨2, ![1, C]⟩ : Shape)) ⟨2, ![R, C]⟩ (![0, 1] : Fin 2 → Fin 2) hl.rowMat
    (broadcastInDim (s := (⟨1, ![C]⟩ : Shape)) ⟨2, ![1, C]⟩ (![1] : Fin 1 → Fin 2) hl.vecRow v)

/-- The host's layer normalisation of every row of `X`, gain `g`, offset `b`. -/
def hostNorm (X : FVec Ideal ⟨2, ![R, C]⟩ .f32) (g b : FVec Ideal ⟨1, ![C]⟩ .f32) : FVec Ideal ⟨2, ![R, C]⟩ .f32 :=
  addf (mulf (mulf (hostCentred hn wn X)
      (broadcastInDim (s := (⟨2, ![R, 1]⟩ : Shape)) ⟨2, ![R, C]⟩ (![0, 1] : Fin 2 → Fin 2) hn.colMat (hostScale hn wn we X))) (hostLanes hl g))
    (hostLanes hl b)

theorem hostMean_apply (X : FVec Ideal ⟨2, ![R, C]⟩ .f32) (r : Fin R) :
    hostMean hn wn X (ix2 r (0 : Fin 1)) = mean (Ideal.ofBits .f32 wn) fun j => X (ix2 r j) := by
  unfold hostMean
  show Ideal.div (broadcastInDim (s := (⟨1, ![R]⟩ : Shape)) ⟨2, ![R, 1]⟩ (![0] : Fin 1 → Fin 2) hn.vecCol _ (ix2 r (0 : Fin 1)))
    (broadcastInDim (s := (⟨0, ![]⟩ : Shape)) ⟨2, ![R, 1]⟩ (![] : Fin 0 → Fin 2) hn.scalarCol _ (ix2 r (0 : Fin 1))) = _
  rw [vec_col_apply, scalar_apply,
    Cert.LibRowReduce.hostReduceAdd_row X (constant (⟨0, ![]⟩ : Shape) .f32 0x00000000#32) (fun _ => Ideal.ofBits_zero_f32) hn.sum hn.sum' hn.unit r]
  rfl

theorem hostCentred_apply (X : FVec Ideal ⟨2, ![R, C]⟩ .f32) (r : Fin R) (k : Fin C) :
    hostCentred hn wn X (ix2 r k) = centred (Ideal.ofBits .f32 wn) (fun j => X (ix2 r j)) k := by
  unfold hostCentred
  show X (ix2 r k) - broadcastInDim (s := (⟨2, ![R, 1]⟩ : Shape)) ⟨2, ![R, C]⟩ (![0, 1] : Fin 2 → Fin 2) hn.colMat _ (ix2 r k) = _
  rw [col_mat_apply, hostMean_apply]
  rfl

theorem hostScale_apply (X : FVec Ideal ⟨2, ![R, C]⟩ .f32) (r : Fin R) :
    hostScale hn wn we X (ix2 r (0 : Fin 1))
      = Ideal.rsqrt (mean (Ideal.ofBits .f32 wn) (fun j => centred (Ideal.ofBits .f32 wn) (fun j => X (ix2 r j)) j
          * centred (Ideal.ofBits .f32 wn) (fun j => X (ix2 r j)) j) + Ideal.ofBits .f32 we) := by
  unfold hostScale
  show Ideal.rsqrt (hostMean hn wn _ (ix2 r (0 : Fin 1))
    + broadcastInDim (s := (⟨0, ![]⟩ : Shape)) ⟨2, ![R, 1]⟩ (![] : Fin 0 → Fin 2) hn.scalarCol _ (ix2 r (0 : Fin 1))) = _
  rw [hostMean_apply, scalar_apply]
  have hsq : (fun j => mulf (hostCentred hn wn X) (hostCentred hn wn X) (ix2 r j))
      = fun j => centred (Ideal.ofBits .f32 wn) (fun j => X (ix2 r j)) j
          * centred (Ideal.ofBits .f32 wn) (fun j => X (ix2 r j)) j := by
    funext j
    show hostCentred hn wn X (ix2 r j) * hostCentred hn wn X (ix2 r j) = _
    rw [hostCentred_apply]
  rw [hsq]
  rfl

theorem hostLanes_apply (v : FVec Ideal ⟨1, ![C]⟩ .f32) (r : Fin R) (k : Fin C) :
    hostLanes hl v (ix2 r k) = v (ix1 k) := by
  unfold hostLanes
  rw [row_mat_apply, vec_row_apply]

/-- Row `r` of the host's layer normalisation is the layer normalisation of row `r`. -/
theorem hostNorm_apply (X : FVec Ideal ⟨2, ![R, C]⟩ .f32) (g b : FVec Ideal ⟨1, ![C]⟩ .f32) (r : Fin R) (k : Fin C) :
    hostNorm hn hl wn we X g b (ix2 r k)
      = lnRow (Ideal.ofBits .f32 wn) (Ideal.ofBits .f32 we) (fun j => X (ix2 r j)) (fun j => g (ix1 j)) (fun j => b (ix1 j)) k := by
  unfold hostNorm
  show hostCentred hn wn X (ix2 r k)
      * broadcastInDim (s := (⟨2, ![R, 1]⟩ : Shape)) ⟨2, ![R, C]⟩ (![0, 1] : Fin 2 → Fin 2) hn.colMat (hostScale hn wn we X) (ix2 r k)
      * hostLanes hl g (ix2 r k) + hostLanes hl b (ix2 r k) = _
  rw [col_mat_apply, hostCentred_apply, hostScale_apply, hostLanes_apply, hostLanes_apply]
  rfl

/-! ## The host's affine map -/

/-- The host's affine map of every row of `X : [R, K]`: the product with `W : [K, N]` plus `b : [N]` over the rows. -/
def hostAffine (hb : LaneRecs R N) (X : FVec Ideal ⟨2, ![R, K]⟩ .f32) (W : FVec Ideal ⟨2, ![K, N]⟩ .f32)
    (b : FVec Ideal ⟨1, ![N]⟩ .f32) : FVec Ideal ⟨2, ![R, N]⟩ .f32 :=
  addf (Host.dotGeneral (F := Ideal) (DotDims.plain R K N) none X W) (hostLanes hb b)

/-- Row `r` of the host's affine map is the affine map of row `r`. -/
theorem hostAffine_apply (hb : LaneRecs R N) (X : FVec Ideal ⟨2, ![R, K]⟩ .f32) (W : FVec Ideal ⟨2, ![K, N]⟩ .f32)
    (b : FVec Ideal ⟨1, ![N]⟩ .f32) (r : Fin R) (q : Fin N) :
    hostAffine hb X W b (ix2 r q) = affRow (fun k => X (ix2 r k)) (fun k q => W (ix2 k q)) (fun q => b (ix1 q)) q := by
  unfold hostAffine
  show Host.dotGeneral (F := Ideal) (DotDims.plain R K N) none X W (ix2 r q) + hostLanes hb b (ix2 r q) = _
  rw [Cert.Lib.DotRows.dotGeneral_plain_apply, hostLanes_apply]
  rfl

end Cert.LibHostLayer

end
-- ==== Proof.LibLayerForms.lean ====
/-
  A two-layer perceptron with a floor, and a residual projection followed by a layer normalisation, read row by row —
  once as a tiled kernel spells them on a block of rows, once as a host program spells them on a whole array.

  Row-wise, over the extended reals:
    * `mlpRow zero x W1 b1 W2 b2` is the row `max (x · W1 + b1) zero · W2 + b2`;
    * `updRow zero n eps e x P …` is the layer normalisation (divisor `n`, constant `eps`, gain `g`, offset `be`) of the
      row `e · P + mlpRow zero x …`.
  A kernel computes them on a block `[M, ·]`: products accumulated into the zero splat, bias and gain rows `[1, ·]`
  broadcast down the block, the lane sums recast as columns `[M, 1]` and broadcast back. A host program computes them on a
  whole array `[R, ·]` with bias vectors broadcast through `[1, ·]`. Entry `(p, q)` of either is entry `q` of the row
  function applied to rows `p` of the operands. Every step is an identity of sums term by term or `0 + s = s`: nothing here
  needs finiteness.
-/
import Mathlib
import Idealize.ShloMosaic.PureOps.Ideal
import Idealize.ShloMosaic.PureOps.Ideal.Laws
import Idealize.ShloMosaic.Lib.Pipeline.Value
import Idealize.ShloMosaic.Lib.ValueIdx
import proofs.«112847_j32109175505235_2_alg».proof.Proof.LibRowSpec
import proofs.«112847_j32109175505235_2_alg».proof.Proof.LibDotRows
import proofs.«112847_j32109175505235_2_alg».proof.Proof.LibRowReduce
import proofs.«112847_j32109175505235_2_alg».proof.Proof.LibColBroadcast
import proofs.«112847_j32109175505235_2_alg».proof.Proof.LibHostLayer

noncomputable section

open scoped BigOperators

namespace Cert.LibLayerForms

open Idealize.ShloMosaic Idealize.ShloMosaic.ValueIdx Cert.LibRowSpec Cert.LibHostLayer

variable {α : Type} {R M K J C : Nat} {φ₁ φ₂ φe φx φp : FTy}

/-! ## The rows -/

/-- The two-layer perceptron of one row: `max (x · W1 + b1) zero · W2 + b2`. -/
def mlpRow (zero : EReal) (x : Fin K → EReal) (W1 : Fin K → Fin J → EReal) (b1 : Fin J → EReal)
    (W2 : Fin J → Fin C → EReal) (b2 : Fin C → EReal) : Fin C → EReal :=
  affRow (fun j => max (affRow x W1 b1 j) zero) W2 b2

/-- The updated row: the layer normalisation of `e · P + mlpRow zero x …`. -/
def updRow (zero n eps : EReal) (e : Fin C → EReal) (x : Fin K → EReal) (P : Fin C → Fin C → EReal)
    (W1 : Fin K → Fin J → EReal) (b1 : Fin J → EReal) (W2 : Fin J → Fin C → EReal) (b2 g be : Fin C → EReal) : Fin C → EReal :=
  lnRow n eps (fun c => (∑ k, e k * P k c) + mlpRow zero x W1 b1 W2 b2 c) g be

/-! ## The host's spelling, on a whole array -/

/-- The host's perceptron of every row of `X : [R, K]`; the floor is the literal `wz` broadcast to `[R, J]`. -/
def hostMlp (h1 : LaneRecs R J) (hz : (⟨0, ![]⟩ : Shape).BroadcastsInDim ⟨2, ![R, J]⟩ (![] : Fin 0 → Fin 2)) (h2 : LaneRecs R C)
    (wz : BitVec 32) (X : FVec Ideal ⟨2, ![R, K]⟩ .f32) (W1 : FVec Ideal ⟨2, ![K, J]⟩ .f32) (b1 : FVec Ideal ⟨1, ![J]⟩ .f32)
    (W2 : FVec Ideal ⟨2, ![J, C]⟩ .f32) (b2 : FVec Ideal ⟨1, ![C]⟩ .f32) : FVec Ideal ⟨2, ![R, C]⟩ .f32 :=
  hostAffine h2 (maximumf (hostAffine h1 X W1 b1)
    (broadcastInDim (s := (⟨0, ![]⟩ : Shape)) ⟨2, ![R, J]⟩ (![] : Fin 0 → Fin 2) hz (constant (⟨0, ![]⟩ : Shape) .f32 wz))) W2 b2

/-- Row `r` of the host's perceptron is the perceptron of row `r`. -/
theorem hostMlp_apply (h1 : LaneRecs R J) (hz : (⟨0, ![]⟩ : Shape).BroadcastsInDim ⟨2, ![R, J]⟩ (![] : Fin 0 → Fin 2))
    (h2 : LaneRecs R C) (wz : BitVec 32) (X : FVec Ideal ⟨2, ![R, K]⟩ .f32) (W1 : FVec Ideal ⟨2, ![K, J]⟩ .f32)
    (b1 : FVec Ideal ⟨1, ![J]⟩ .f32) (W2 : FVec Ideal ⟨2, ![J, C]⟩ .f32) (b2 : FVec Ideal ⟨1, ![C]⟩ .f32) (r : Fin R) (q : Fin C) :
    hostMlp h1 hz h2 wz X W1 b1 W2 b2 (ix2 r q)
      = mlpRow (Ideal.ofBits .f32 wz) (fun k => X (ix2 r k)) (fun k j => W1 (ix2 k j)) (fun j => b1 (ix1 j))
          (fun j c => W2 (ix2 j c)) (fun c => b2 (ix1 c)) q := by
  unfold hostMlp
  rw [hostAffine_apply]
  have hrow : (fun j : Fin J => maximumf (hostAffine h1 X W1 b1)
        (broadcastInDim (s := (⟨0, ![]⟩ : Shape)) ⟨2, ![R, J]⟩ (![] : Fin 0 → Fin 2) hz (constant (⟨0, ![]⟩ : Shape) .f32 wz)) (ix2 r j))
      = fun j => max (affRow (fun k => X (ix2 r k)) (fun k j => W1 (ix2 k j)) (fun j => b1 (ix1 j)) j) (Ideal.ofBits .f32 wz) := by
    funext j
    show max (hostAffine h1 X W1 b1 (ix2 r j))
      (broadcastInDim (s := (⟨0, ![]⟩ : Shape)) ⟨2, ![R, J]⟩ (![] : Fin 0 → Fin 2) hz (constant (⟨0, ![]⟩ : Shape) .f32 wz) (ix2 r j)) = _
    rw [hostAffine_apply, scalar_apply]
    rfl
  exact congrArg (fun f => affRow f (fun j c => W2 (ix2 j c)) (fun c => b2 (ix1 c)) q) hrow

/-- The host's updated array: the layer normalisation of `E · P + hostMlp X …`, row by row. -/
def hostUpd (hn : NormRecs R C) (hl : LaneRecs R C) (h1 : LaneRecs R J)
    (hz : (⟨0, ![]⟩ : Shape).BroadcastsInDim ⟨2, ![R, J]⟩ (![] : Fin 0 → Fin 2)) (wn we wz : BitVec 32)
    (E : FVec Ideal ⟨2, ![R, C]⟩ .f32) (X : FVec Ideal ⟨2, ![R, K]⟩ .f32) (P : FVec Ideal ⟨2, ![C, C]⟩ .f32)
    (W1 : FVec Ideal ⟨2, ![K, J]⟩ .f32) (b1 : FVec Ideal ⟨1, ![J]⟩ .f32) (W2 : FVec Ideal ⟨2, ![J, C]⟩ .f32)
    (b2 g be : FVec Ideal ⟨1, ![C]⟩ .f32) : FVec Ideal ⟨2, ![R, C]⟩ .f32 :=
  hostNorm hn hl wn we (addf (Host.dotGeneral (F := Ideal) (DotDims.plain R C C) none E P) (hostMlp h1 hz hl wz X W1 b1 W2 b2)) g be

/-- Row `r` of the host's updated array is the updated row of rows `r`. -/
theorem hostUpd_apply (hn : NormRecs R C) (hl : LaneRecs R C) (h1 : LaneRecs R J)
    (hz : (⟨0, ![]⟩ : Shape).BroadcastsInDim ⟨2, ![R, J]⟩ (![] : Fin 0 → Fin 2)) (wn we wz : BitVec 32)
    (E : FVec Ideal ⟨2, ![R, C]⟩ .f32) (X : FVec Ideal ⟨2, ![R, K]⟩ .f32) (P : FVec Ideal ⟨2, ![C, C]⟩ .f32)
    (W1 : FVec Ideal ⟨2, ![K, J]⟩ .f32) (b1 : FVec Ideal ⟨1, ![J]⟩ .f32) (W2 : FVec Ideal ⟨2, ![J, C]⟩ .f32)
    (b2 g be : FVec Ideal ⟨1, ![C]⟩ .f32) (r : Fin R) (q : Fin C) :
    hostUpd hn hl h1 hz wn we wz E X P W1 b1 W2 b2 g be (ix2 r q)
      = updRow (Ideal.ofBits .f32 wz) (Ideal.ofBits .f32 wn) (Ideal.ofBits .f32 we) (fun k => E (ix2 r k)) (fun k => X (ix2 r k))
          (fun k c => P (ix2 k c)) (fun k j => W1 (ix2 k j)) (fun j => b1 (ix1 j)) (fun j c => W2 (ix2 j c)) (fun c => b2 (ix1 c))
          (fun c => g (ix1 c)) (fun c => be (ix1 c)) q := by
  unfold hostUpd
  rw [hostNorm_apply]
  have hrow : (fun j : Fin C => addf (Host.dotGeneral (F := Ideal) (DotDims.plain R C C) none E P) (hostMlp h1 hz hl wz X W1 b1 W2 b2) (ix2 r j))
      = fun c => (∑ k, E (ix2 r k) * P (ix2 k c))
          + mlpRow (Ideal.ofBits .f32 wz) (fun k => X (ix2 r k)) (fun k j => W1 (ix2 k j)) (fun j => b1 (ix1 j))
              (fun j c => W2 (ix2 j c)) (fun c => b2 (ix1 c)) c := by
    funext c
    show Host.dotGeneral (F := Ideal) (DotDims.plain R C C) none E P (ix2 r c) + hostMlp h1 hz hl wz X W1 b1 W2 b2 (ix2 r c) = _
    rw [Cert.Lib.DotRows.dotGeneral_plain_apply, hostMlp_apply]
  exact congrArg (fun f => lnRow (Ideal.ofBits .f32 wn) (Ideal.ofBits .f32 we) f (fun j => g (ix1 j)) (fun j => be (ix1 j)) q) hrow

/-! ## The kernel's spelling, on a block of rows -/

/-- One row `[1, J]` broadcast down `M` rows reads, at `(p, q)`, its lane `q`. -/
theorem broadcastTo_1n_mn_apply (v : (⟨2, ![1, J]⟩ : Shape).Idx → α) (h : (⟨2, ![1, J]⟩ : Shape).Broadcasts ⟨2, ![M, J]⟩)
    (p : Fin M) (q : Fin J) : broadcastTo ⟨2, ![M, J]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if J = 1 then 0 else q.val
    split
    · have := q.isLt; omega
    · rfl

/-- The shape relations a kernel's affine map of a block `[M, K]` into `[M, J]` cites. -/
structure KerAffRecs (M K J : Nat) : Prop where
  wCast : (⟨2, ![K, J]⟩ : Shape).ShapeCasts ⟨2, ![K, J]⟩
  rowCast : (⟨2, ![1, J]⟩ : Shape).ShapeCasts ⟨2, ![1, J]⟩
  rowMat : (⟨2, ![1, J]⟩ : Shape).Broadcasts ⟨2, ![M, J]⟩

/-- The kernel's affine map of a block: the product with `w` into the zero splat plus the bias row broadcast down. -/
def kerAffine (ha : KerAffRecs M K J) (x : FVec Ideal ⟨2, ![M, K]⟩ φ₁) (w : FVec Ideal ⟨2, ![K, J]⟩ φ₂)
    (b : FVec Ideal ⟨2, ![1, J]⟩ .f32) : FVec Ideal ⟨2, ![M, J]⟩ .f32 :=
  addf (matmul (F := Ideal) (DotDims.plain M K J) none x (shapeCast ⟨2, ![K, J]⟩ w ha.wCast) (constant ⟨2, ![M, J]⟩ .f32 0x00000000#32))
    (broadcastTo ⟨2, ![M, J]⟩ (shapeCast ⟨2, ![1, J]⟩ b ha.rowCast) ha.rowMat)

theorem kerAffine_apply (ha : KerAffRecs M K J) (x : FVec Ideal ⟨2, ![M, K]⟩ φ₁) (w : FVec Ideal ⟨2, ![K, J]⟩ φ₂)
    (b : FVec Ideal ⟨2, ![1, J]⟩ .f32) (p : Fin M) (q : Fin J) :
    kerAffine ha x w b (ix2 p q)
      = affRow (fun k => x (ix2 p k)) (fun k q => w (ix2 k q)) (fun q => b (ix2 (0 : Fin 1) q)) q := by
  unfold kerAffine
  rw [shapeCast_self, shapeCast_self]
  show matmul (F := Ideal) (DotDims.plain M K J) none x w (constant ⟨2, ![M, J]⟩ .f32 0x00000000#32) (ix2 p q)
    + broadcastTo ⟨2, ![M, J]⟩ b ha.rowMat (ix2 p q) = _
  rw [Cert.Lib.DotRows.matmul_plain_apply, broadcastTo_1n_mn_apply]
  rfl

/-- The kernel's perceptron of a block: the first affine map floored at the splat of the literal `wz`, narrowed, then
    the second affine map. -/
def kerMlp (h1 : KerAffRecs M K J) (h2 : KerAffRecs M J C) (hlt : (FTy.bf16).bits < (FTy.f32).bits) (wz : BitVec 32)
    (x : FVec Ideal ⟨2, ![M, K]⟩ φ₁) (w1 : FVec Ideal ⟨2, ![K, J]⟩ φ₂) (b1 : FVec Ideal ⟨2, ![1, J]⟩ .f32)
    (w2 : FVec Ideal ⟨2, ![J, C]⟩ φp) (b2 : FVec Ideal ⟨2, ![1, C]⟩ .f32) : FVec Ideal ⟨2, ![M, C]⟩ .f32 :=
  kerAffine h2 (truncf .bf16 (maximumf (kerAffine h1 x w1 b1) (broadcast ⟨2, ![M, J]⟩ (Scalar.ofBits (F := Ideal) .f32 wz))) hlt) w2 b2

theorem kerMlp_apply (h1 : KerAffRecs M K J) (h2 : KerAffRecs M J C) (hlt : (FTy.bf16).bits < (FTy.f32).bits) (wz : BitVec 32)
    (x : FVec Ideal ⟨2, ![M, K]⟩ φ₁) (w1 : FVec Ideal ⟨2, ![K, J]⟩ φ₂) (b1 : FVec Ideal ⟨2, ![1, J]⟩ .f32)
    (w2 : FVec Ideal ⟨2, ![J, C]⟩ φp) (b2 : FVec Ideal ⟨2, ![1, C]⟩ .f32) (p : Fin M) (q : Fin C) :
    kerMlp h1 h2 hlt wz x w1 b1 w2 b2 (ix2 p q)
      = mlpRow (Ideal.ofBits .f32 wz) (fun k => x (ix2 p k)) (fun k j => w1 (ix2 k j)) (fun j => b1 (ix2 (0 : Fin 1) j))
          (fun j c => w2 (ix2 j c)) (fun c => b2 (ix2 (0 : Fin 1) c)) q := by
  unfold kerMlp
  rw [kerAffine_apply]
  have hrow : (fun j : Fin J => (truncf .bf16 (maximumf (kerAffine h1 x w1 b1) (broadcast ⟨2, ![M, J]⟩ (Scalar.ofBits (F := Ideal) .f32 wz))) hlt
        : FVec Ideal ⟨2, ![M, J]⟩ .bf16) (ix2 p j))
      = fun j => max (affRow (fun k => x (ix2 p k)) (fun k j => w1 (ix2 k j)) (fun j => b1 (ix2 (0 : Fin 1) j)) j) (Ideal.ofBits .f32 wz) := by
    funext j
    show max (kerAffine h1 x w1 b1 (ix2 p j)) (Ideal.ofBits .f32 wz) = _
    rw [kerAffine_apply]
  exact congrArg (fun f => affRow f (fun j c => w2 (ix2 j c)) (fun c => b2 (ix2 (0 : Fin 1) c)) q) hrow

/-- The shape relations a kernel's layer normalisation of a block `[M, C]` cites. -/
structure KerNormRecs (M C : Nat) : Prop where
  red : (⟨2, ![M, C]⟩ : Shape).Reduces [1] (⟨1, ![M]⟩ : Shape)
  col : (⟨1, ![M]⟩ : Shape).ShapeCasts ⟨2, ![M, 1]⟩
  colMat : (⟨2, ![M, 1]⟩ : Shape).Broadcasts ⟨2, ![M, C]⟩
  rowCast : (⟨2, ![1, C]⟩ : Shape).ShapeCasts ⟨2, ![1, C]⟩
  rowMat : (⟨2, ![1, C]⟩ : Shape).Broadcasts ⟨2, ![M, C]⟩

section KernelNorm

variable (hk : KerNormRecs M C) (hφ : FKind.Formats .f32) (hacc : (0x00000000#32 : BitVec 32) = FKind.add.neutral .f32 hφ)
  (wn we : BitVec 32)

/-- Every row's mean, as a column: the lane sum from zero recast as a column, divided by the splat of the literal `wn`. -/
def kerMean (y : FVec Ideal ⟨2, ![M, C]⟩ .f32) : FVec Ideal ⟨2, ![M, 1]⟩ .f32 :=
  divf (shapeCast ⟨2, ![M, 1]⟩ (multiReduction .add [1] (⟨1, ![M]⟩ : Shape) y 0x00000000#32 hk.red hφ hacc) hk.col)
    (broadcast ⟨2, ![M, 1]⟩ (Scalar.ofBits (F := Ideal) .f32 wn))

/-- The block minus its rows' means. -/
def kerCentred (y : FVec Ideal ⟨2, ![M, C]⟩ .f32) : FVec Ideal ⟨2, ![M, C]⟩ .f32 :=
  subf y (broadcastTo ⟨2, ![M, C]⟩ (kerMean hk hφ hacc wn y) hk.colMat)

/-- The kernel's layer normalisation of every row of the block, gain row `g`, offset row `be`. -/
def kerNorm (y : FVec Ideal ⟨2, ![M, C]⟩ .f32) (g be : FVec Ideal ⟨2, ![1, C]⟩ .f32) : FVec Ideal ⟨2, ![M, C]⟩ .f32 :=
  addf (mulf (mulf (kerCentred hk hφ hacc wn y)
      (broadcastTo ⟨2, ![M, C]⟩ (rsqrt (addf (kerMean hk hφ hacc wn (mulf (kerCentred hk hφ hacc wn y) (kerCentred hk hφ hacc wn y)))
        (broadcast ⟨2, ![M, 1]⟩ (Scalar.ofBits (F := Ideal) .f32 we)))) hk.colMat))
      (broadcastTo ⟨2, ![M, C]⟩ (shapeCast ⟨2, ![1, C]⟩ g hk.rowCast) hk.rowMat))
    (broadcastTo ⟨2, ![M, C]⟩ (shapeCast ⟨2, ![1, C]⟩ be hk.rowCast) hk.rowMat)

theorem kerMean_apply (y : FVec Ideal ⟨2, ![M, C]⟩ .f32) (p : Fin M) :
    kerMean hk hφ hacc wn y (ix2 p (0 : Fin 1)) = mean (Ideal.ofBits .f32 wn) fun j => y (ix2 p j) := by
  unfold kerMean
  show Ideal.div (shapeCast ⟨2, ![M, 1]⟩ (multiReduction .add [1] (⟨1, ![M]⟩ : Shape) y 0x00000000#32 hk.red hφ hacc) hk.col (ix2 p (0 : Fin 1)))
    (Ideal.ofBits .f32 wn) = _
  rw [Cert.LibRowReduce.shapeCast_col_apply, Cert.LibRowReduce.multiReduction_add_row]
  rfl

theorem kerCentred_apply (y : FVec Ideal ⟨2, ![M, C]⟩ .f32) (p : Fin M) (k : Fin C) :
    kerCentred hk hφ hacc wn y (ix2 p k) = centred (Ideal.ofBits .f32 wn) (fun j => y (ix2 p j)) k := by
  unfold kerCentred
  show y (ix2 p k) - broadcastTo ⟨2, ![M, C]⟩ (kerMean hk hφ hacc wn y) hk.colMat (ix2 p k) = _
  rw [Cert.LibColBroadcast.broadcastTo_a1_ab_apply, kerMean_apply]
  rfl

/-- Row `p` of the kernel's layer normalisation is the layer normalisation of row `p`. -/
theorem kerNorm_apply (y : FVec Ideal ⟨2, ![M, C]⟩ .f32) (g be : FVec Ideal ⟨2, ![1, C]⟩ .f32) (p : Fin M) (k : Fin C) :
    kerNorm hk hφ hacc wn we y g be (ix2 p k)
      = lnRow (Ideal.ofBits .f32 wn) (Ideal.ofBits .f32 we) (fun j => y (ix2 p j)) (fun j => g (ix2 (0 : Fin 1) j))
          (fun j => be (ix2 (0 : Fin 1) j)) k := by
  unfold kerNorm
  rw [shapeCast_self, shapeCast_self]
  show kerCentred hk hφ hacc wn y (ix2 p k)
      * broadcastTo ⟨2, ![M, C]⟩ (rsqrt (addf (kerMean hk hφ hacc wn (mulf (kerCentred hk hφ hacc wn y) (kerCentred hk hφ hacc wn y)))
          (broadcast ⟨2, ![M, 1]⟩ (Scalar.ofBits (F := Ideal) .f32 we)))) hk.colMat (ix2 p k)
      * broadcastTo ⟨2, ![M, C]⟩ g hk.rowMat (ix2 p k) + broadcastTo ⟨2, ![M, C]⟩ be hk.rowMat (ix2 p k) = _
  rw [Cert.LibColBroadcast.broadcastTo_a1_ab_apply, broadcastTo_1n_mn_apply, broadcastTo_1n_mn_apply, kerCentred_apply]
  show _ * Ideal.rsqrt (kerMean hk hφ hacc wn (mulf (kerCentred hk hφ hacc wn y) (kerCentred hk hφ hacc wn y)) (ix2 p (0 : Fin 1))
      + Ideal.ofBits .f32 we) * _ + _ = _
  rw [kerMean_apply]
  have hsq : (fun j => mulf (kerCentred hk hφ hacc wn y) (kerCentred hk hφ hacc wn y) (ix2 p j))
      = fun j => centred (Ideal.ofBits .f32 wn) (fun j => y (ix2 p j)) j * centred (Ideal.ofBits .f32 wn) (fun j => y (ix2 p j)) j := by
    funext j
    show kerCentred hk hφ hacc wn y (ix2 p j) * kerCentred hk hφ hacc wn y (ix2 p j) = _
    rw [kerCentred_apply]
  rw [hsq]
  rfl

end KernelNorm

/-- The kernel's updated block: the layer normalisation of `e · P + kerMlp x …`. -/
def kerUpd (hk : KerNormRecs M C) (hφ : FKind.Formats .f32) (hacc : (0x00000000#32 : BitVec 32) = FKind.add.neutral .f32 hφ)
    (hp : (⟨2, ![C, C]⟩ : Shape).ShapeCasts ⟨2, ![C, C]⟩) (h1 : KerAffRecs M K J) (h2 : KerAffRecs M J C)
    (hlt : (FTy.bf16).bits < (FTy.f32).bits) (wn we wz : BitVec 32)
    (e : FVec Ideal ⟨2, ![M, C]⟩ φe) (x : FVec Ideal ⟨2, ![M, K]⟩ φ₁) (P : FVec Ideal ⟨2, ![C, C]⟩ φx)
    (w1 : FVec Ideal ⟨2, ![K, J]⟩ φ₂) (b1 : FVec Ideal ⟨2, ![1, J]⟩ .f32) (w2 : FVec Ideal ⟨2, ![J, C]⟩ φp)
    (b2 g be : FVec Ideal ⟨2, ![1, C]⟩ .f32) : FVec Ideal ⟨2, ![M, C]⟩ .f32 :=
  kerNorm hk hφ hacc wn we
    (addf (matmul (F := Ideal) (DotDims.plain M C C) none e (shapeCast ⟨2, ![C, C]⟩ P hp) (constant ⟨2, ![M, C]⟩ .f32 0x00000000#32))
      (kerMlp h1 h2 hlt wz x w1 b1 w2 b2)) g be

/-- Row `p` of the kernel's updated block is the updated row of rows `p` of its operands. -/
theorem kerUpd_apply (hk : KerNormRecs M C) (hφ : FKind.Formats .f32) (hacc : (0x00000000#32 : BitVec 32) = FKind.add.neutral .f32 hφ)
    (hp : (⟨2, ![C, C]⟩ : Shape).ShapeCasts ⟨2, ![C, C]⟩) (h1 : KerAffRecs M K J) (h2 : KerAffRecs M J C)
    (hlt : (FTy.bf16).bits < (FTy.f32).bits) (wn we wz : BitVec 32)
    (e : FVec Ideal ⟨2, ![M, C]⟩ φe) (x : FVec Ideal ⟨2, ![M, K]⟩ φ₁) (P : FVec Ideal ⟨2, ![C, C]⟩ φx)
    (w1 : FVec Ideal ⟨2, ![K, J]⟩ φ₂) (b1 : FVec Ideal ⟨2, ![1, J]⟩ .f32) (w2 : FVec Ideal ⟨2, ![J, C]⟩ φp)
    (b2 g be : FVec Ideal ⟨2, ![1, C]⟩ .f32) (p : Fin M) (q : Fin C) :
    kerUpd hk hφ hacc hp h1 h2 hlt wn we wz e x P w1 b1 w2 b2 g be (ix2 p q)
      = updRow (Ideal.ofBits .f32 wz) (Ideal.ofBits .f32 wn) (Ideal.ofBits .f32 we) (fun k => e (ix2 p k)) (fun k => x (ix2 p k))
          (fun k c => P (ix2 k c)) (fun k j => w1 (ix2 k j)) (fun j => b1 (ix2 (0 : Fin 1) j)) (fun j c => w2 (ix2 j c))
          (fun c => b2 (ix2 (0 : Fin 1) c)) (fun c => g (ix2 (0 : Fin 1) c)) (fun c => be (ix2 (0 : Fin 1) c)) q := by
  unfold kerUpd
  rw [kerNorm_apply, shapeCast_self]
  have hrow : (fun j : Fin C => addf (matmul (F := Ideal) (DotDims.plain M C C) none e P (constant ⟨2, ![M, C]⟩ .f32 0x00000000#32))
        (kerMlp h1 h2 hlt wz x w1 b1 w2 b2) (ix2 p j))
      = fun c => (∑ k, e (ix2 p k) * P (ix2 k c))
          + mlpRow (Ideal.ofBits .f32 wz) (fun k => x (ix2 p k)) (fun k j => w1 (ix2 k j)) (fun j => b1 (ix2 (0 : Fin 1) j))
              (fun j c => w2 (ix2 j c)) (fun c => b2 (ix2 (0 : Fin 1) c)) c := by
    funext c
    show matmul (F := Ideal) (DotDims.plain M C C) none e P (constant ⟨2, ![M, C]⟩ .f32 0x00000000#32) (ix2 p c)
      + kerMlp h1 h2 hlt wz x w1 b1 w2 b2 (ix2 p c) = _
    rw [Cert.Lib.DotRows.matmul_plain_apply, kerMlp_apply]
  exact congrArg (fun f => lnRow (Ideal.ofBits .f32 wn) (Ideal.ofBits .f32 we) f (fun j => g (ix2 (0 : Fin 1) j))
    (fun j => be (ix2 (0 : Fin 1) j)) q) hrow

end Cert.LibLayerForms

end
-- ==== Proof.LibConcat3.lean ====
/-
  Three arrays of one shape [R, n] laid side by side along the lanes, read at an index.

  The concatenation of three [R, n] arrays along axis 1 is an [R, w] array with w = n + n + n. Its entry in row r
  and lane l comes from the piece whose span of lanes holds l: the first at lane l when l < n, the second at lane
  l - n when n ≤ l < n + n, the third at lane l - (n + n) otherwise; the row is the same in every case.
-/
import Idealize.ShloMosaic.Lib.Pipeline.Value
import Idealize.ShloMosaic.Lib.ValueIdx

namespace Cert.LibConcat3

open Idealize.ShloMosaic Idealize.ShloMosaic.ValueIdx

/-- Row `r`, lane `l` of three [R, n] arrays laid side by side: the piece whose lanes hold `l`, at `l` less the
    lanes of the pieces before it. -/
def side3 {α : Type} {R n w : Nat} (hw : w = n + n + n) (a b c : (⟨2, ![R, n]⟩ : Shape).Idx → α)
    (r : Fin R) (l : Fin w) : α :=
  if h0 : l.val < n then a (ix2 r ⟨l.val, h0⟩)
  else if h1 : l.val < n + n then b (ix2 r ⟨l.val - n, by omega⟩)
  else c (ix2 r ⟨l.val - (n + n), by have := l.isLt; omega⟩)

/-- `side3` reads one row of each piece: pieces that agree on the rows read give the same row of 3 n lanes. -/
theorem side3_congr {α : Type} {R R' n w : Nat} (hw : w = n + n + n)
    {a b c : (⟨2, ![R, n]⟩ : Shape).Idx → α} {a' b' c' : (⟨2, ![R', n]⟩ : Shape).Idx → α} {r : Fin R} {r' : Fin R'}
    (ha : ∀ q : Fin n, a (ix2 r q) = a' (ix2 r' q)) (hb : ∀ q : Fin n, b (ix2 r q) = b' (ix2 r' q))
    (hc : ∀ q : Fin n, c (ix2 r q) = c' (ix2 r' q)) :
    side3 hw a b c r = side3 hw a' b' c' r' := by
  funext l
  unfold side3
  by_cases h0 : l.val < n
  · rw [dif_pos h0, dif_pos h0]; exact ha _
  · rw [dif_neg h0, dif_neg h0]
    by_cases h1 : l.val < n + n
    · rw [dif_pos h1, dif_pos h1]; exact hb _
    · rw [dif_neg h1, dif_neg h1]; exact hc _

/-- **The concatenation of three [R, n] arrays along the lanes, read at row `r` and lane `l`**, is `side3`. -/
theorem concatenate3_lanes_apply {α : Type} {R n w : Nat} (hw : w = n + n + n)
    (a b c : (⟨2, ![R, n]⟩ : Shape).Idx → α)
    (h : Shape.Concatenates ([(⟨⟨2, ![R, n]⟩, a⟩ : (s : Shape) × (s.Idx → α)), ⟨⟨2, ![R, n]⟩, b⟩, ⟨⟨2, ![R, n]⟩, c⟩].map (·.1))
      ⟨2, ![R, w]⟩ (1 : Fin 2))
    (r : Fin R) (l : Fin w) :
    concatenate ⟨2, ![R, w]⟩ (1 : Fin 2) [⟨⟨2, ![R, n]⟩, a⟩, ⟨⟨2, ![R, n]⟩, b⟩, ⟨⟨2, ![R, n]⟩, c⟩] h (ix2 r l)
      = side3 hw a b c r l := by
  unfold side3
  have hoff : ∀ (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro i hi bb hbb
    match bb with
    | ⟨0, _⟩ => exact hi
    | ⟨1, _⟩ => exact absurd rfl hbb
  by_cases h0 : l.val < n
  · rw [dif_pos h0]
    exact concatenate_apply_piece (1 : Fin 2) _ h (ix2 r l) 0 (by simp) ⟨2, ![R, n]⟩ a rfl rfl 0 rfl
      (ix2 r ⟨l.val, h0⟩) (hoff _ rfl) (by show 0 + l.val = l.val; omega)
  · rw [dif_neg h0]
    by_cases h1 : l.val < n + n
    · rw [dif_pos h1]
      exact concatenate_apply_piece (1 : Fin 2) _ h (ix2 r l) 1 (by simp) ⟨2, ![R, n]⟩ b rfl rfl n (by simp)
        (ix2 r ⟨l.val - n, by omega⟩) (hoff _ rfl) (by show n + (l.val - n) = l.val; omega)
    · rw [dif_neg h1]
      exact concatenate_apply_piece (1 : Fin 2) _ h (ix2 r l) 2 (by simp) ⟨2, ![R, n]⟩ c rfl rfl (n + n) (by simp)
        (ix2 r ⟨l.val - (n + n), by have := l.isLt; omega⟩) (hoff _ rfl)
        (by show n + n + (l.val - (n + n)) = l.val; omega)

end Cert.LibConcat3
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.Spec.lean ====
/-
  What one message-passing layer computes, as whole arrays defined row by row over the extended reals.

  Every edge `e` has a row of `K = 3·128` inputs: the sender's features, the receiver's features and the edge's own
  features side by side. The message of edge `e` is the two-layer perceptron of that row (`msgArr`). The new features of
  edge `e` are the layer normalisation of `edge_e · We + perceptron(row_e)` (`updArr`). Every node `v` has a row of
  `2·128` inputs, its own features beside the sum of the messages sent to it, and its new features are the layer
  normalisation of `node_v · Wn + perceptron(row_v)` (`updArr` again). The three float literals — the floor `0`, the divisor
  `128` of a mean and the constant added under the reciprocal square root — are kept as their words: both programs spell
  the same words, so they are never evaluated.
-/
import Mathlib
import Idealize.ShloMosaic.PureOps.Ideal
import Idealize.ShloMosaic.Lib.Pipeline.Value
import Idealize.ShloMosaic.Lib.ValueIdx
import proofs.«112847_j32109175505235_2_alg».proof.Proof.LibRowSpec
import proofs.«112847_j32109175505235_2_alg».proof.Proof.LibHostLayer
import proofs.«112847_j32109175505235_2_alg».proof.Proof.LibLayerForms
import proofs.«112847_j32109175505235_2_alg».proof.Proof.LibConcat2

noncomputable section

open scoped BigOperators

namespace Cert.GraphLayer

open Idealize.ShloMosaic Idealize.ShloMosaic.ValueIdx Cert.LibRowSpec Cert.LibHostLayer Cert.LibLayerForms

/-- The floor of the perceptron's hidden layer: the float word of `0.0`. -/
abbrev wZero : BitVec 32 := 0x00000000#32
/-- The divisor of a row's mean: the float word of `128.0`. -/
abbrev w128 : BitVec 32 := 0x43000000#32
/-- The constant added to the variance: the float word nearest to `1e-6`. -/
abbrev wEps : BitVec 32 := 0x358637BD#32

variable {α : Type} {R K J C n₁ n₂ w : Nat}

/-- Row `r`, lane `l` of two arrays `[R, n₁]` and `[R, n₂]` laid side by side. -/
def side2 (hw : w = n₁ + n₂) (a : (⟨2, ![R, n₁]⟩ : Shape).Idx → α) (b : (⟨2, ![R, n₂]⟩ : Shape).Idx → α) (r : Fin R) (l : Fin w) : α :=
  if h : l.val < n₁ then a (ix2 r ⟨l.val, h⟩) else b (ix2 r ⟨l.val - n₁, by have := l.isLt; omega⟩)

/-- `side2` reads one row of each piece. -/
theorem side2_congr {R' : Nat} (hw : w = n₁ + n₂) {a : (⟨2, ![R, n₁]⟩ : Shape).Idx → α} {b : (⟨2, ![R, n₂]⟩ : Shape).Idx → α}
    {a' : (⟨2, ![R', n₁]⟩ : Shape).Idx → α} {b' : (⟨2, ![R', n₂]⟩ : Shape).Idx → α} {r : Fin R} {r' : Fin R'}
    (ha : ∀ q : Fin n₁, a (ix2 r q) = a' (ix2 r' q)) (hb : ∀ q : Fin n₂, b (ix2 r q) = b' (ix2 r' q)) :
    side2 hw a b r = side2 hw a' b' r' := by
  funext l
  unfold side2
  by_cases h : l.val < n₁
  · rw [dif_pos h, dif_pos h]; exact ha _
  · rw [dif_neg h, dif_neg h]; exact hb _

/-- The concatenation of `[R, n₁]` and `[R, n₂]` along the lanes, read at row `r` and lane `l`, is `side2`. -/
theorem concatenate2_lanes_apply (hw : w = n₁ + n₂) (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2)) (r : Fin R) (l : Fin w) :
    concatenate ⟨2, ![R, w]⟩ (1 : Fin 2) [⟨⟨2, ![R, n₁]⟩, a⟩, ⟨⟨2, ![R, n₂]⟩, b⟩] h (ix2 r l) = side2 hw a b r l := by
  unfold side2
  by_cases h0 : l.val < n₁
  · rw [dif_pos h0]
    exact Cert.LibConcat2.concatenate2_left a b h r l ⟨l.val, h0⟩ rfl
  · rw [dif_neg h0]
    exact Cert.LibConcat2.concatenate2_right a b h r l ⟨l.val - n₁, by have := l.isLt; omega⟩ (by show l.val = n₁ + (l.val - n₁); omega)

/-- The messages: row `r` is the perceptron of the input row `X r`. -/
def msgArr (X : Fin R → Fin K → EReal) (W1 : (⟨2, ![K, J]⟩ : Shape).Idx → EReal) (b1 : Fin J → EReal)
    (W2 : (⟨2, ![J, C]⟩ : Shape).Idx → EReal) (b2 : Fin C → EReal) : (⟨2, ![R, C]⟩ : Shape).Idx → EReal :=
  fun i => mlpRow (Ideal.ofBits .f32 wZero) (X (i 0)) (fun k j => W1 (ix2 k j)) b1 (fun j c => W2 (ix2 j c)) b2 (i 1)

/-- The updated features: row `r` is the layer normalisation of `E_r · P + perceptron (X r)`. -/
def updArr (E : (⟨2, ![R, C]⟩ : Shape).Idx → EReal) (X : Fin R → Fin K → EReal) (P : (⟨2, ![C, C]⟩ : Shape).Idx → EReal)
    (W1 : (⟨2, ![K, J]⟩ : Shape).Idx → EReal) (b1 : Fin J → EReal) (W2 : (⟨2, ![J, C]⟩ : Shape).Idx → EReal)
    (b2 g be : Fin C → EReal) : (⟨2, ![R, C]⟩ : Shape).Idx → EReal :=
  fun i => updRow (Ideal.ofBits .f32 wZero) (Ideal.ofBits .f32 w128) (Ideal.ofBits .f32 wEps) (fun k => E (ix2 (i 0) k)) (X (i 0))
    (fun k c => P (ix2 k c)) (fun k j => W1 (ix2 k j)) b1 (fun j c => W2 (ix2 j c)) b2 g be (i 1)

/-- The host's perceptron of a whole array is `msgArr` of its rows. -/
theorem hostMlp_eq (h1 : LaneRecs R J) (hz : (⟨0, ![]⟩ : Shape).BroadcastsInDim ⟨2, ![R, J]⟩ (![] : Fin 0 → Fin 2)) (h2 : LaneRecs R C)
    (X : FVec Ideal ⟨2, ![R, K]⟩ .f32) (W1 : FVec Ideal ⟨2, ![K, J]⟩ .f32) (b1 : FVec Ideal ⟨1, ![J]⟩ .f32)
    (W2 : FVec Ideal ⟨2, ![J, C]⟩ .f32) (b2 : FVec Ideal ⟨1, ![C]⟩ .f32) :
    hostMlp h1 hz h2 wZero X W1 b1 W2 b2
      = msgArr (fun r k => X (ix2 r k)) W1 (fun j => b1 (ix1 j)) W2 (fun c => b2 (ix1 c)) := by
  funext i
  obtain ⟨r, q, rfl⟩ : ∃ (r : Fin R) (q : Fin C), i = ix2 r q := ⟨i 0, i 1, eq_ix2 i⟩
  rw [hostMlp_apply]
  rfl

/-- The host's residual, perceptron and layer normalisation of a whole array is `updArr` of its rows. -/
theorem hostUpd_eq (hn : NormRecs R C) (hl : LaneRecs R C) (h1 : LaneRecs R J)
    (hz : (⟨0, ![]⟩ : Shape).BroadcastsInDim ⟨2, ![R, J]⟩ (![] : Fin 0 → Fin 2))
    (E : FVec Ideal ⟨2, ![R, C]⟩ .f32) (X : FVec Ideal ⟨2, ![R, K]⟩ .f32) (P : FVec Ideal ⟨2, ![C, C]⟩ .f32)
    (W1 : FVec Ideal ⟨2, ![K, J]⟩ .f32) (b1 : FVec Ideal ⟨1, ![J]⟩ .f32) (W2 : FVec Ideal ⟨2, ![J, C]⟩ .f32)
    (b2 g be : FVec Ideal ⟨1, ![C]⟩ .f32) :
    hostUpd hn hl h1 hz w128 wEps wZero E X P W1 b1 W2 b2 g be
      = updArr E (fun r k => X (ix2 r k)) P W1 (fun j => b1 (ix1 j)) W2 (fun c => b2 (ix1 c)) (fun c => g (ix1 c)) (fun c => be (ix1 c)) := by
  funext i
  obtain ⟨r, q, rfl⟩ : ∃ (r : Fin R) (q : Fin C), i = ix2 r q := ⟨i 0, i 1, eq_ix2 i⟩
  rw [hostUpd_apply]
  rfl

end Cert.GraphLayer

end
-- ==== Proof.EdgeRegion.lean ====
/-
  The edge region of the idealized kernel, read as whole arrays.

  The region runs over 300 points; point `t` stages rows `2000·t … 2000·t + 1999` of the gathered sender features, the
  gathered receiver features and the edge features, and the whole of every weight, bias, gain and offset array. Its body
  writes two blocks of 2000 rows: the messages (the perceptron of each row of the three pieces laid side by side) and the
  new edge features (the layer normalisation of `edge · We + perceptron`). Row `p` of either block depends only on rows
  `p` of the staged blocks, that is on row `2000·t + p` of the arrays, so block `t` is the restriction of one whole-array
  function, and the 300 blocks tile the 600000 rows: each output array ends holding that function (`final14`, `final15`).
  Everything is stated at whatever the buffers hold when the region is entered (`V`).
-/
import proofs.«112847_j32109175505235_2_alg».proof.Proof.Gen.KernelIdeal.Frame
import proofs.«112847_j32109175505235_2_alg».proof.Proof.LibLayerForms
import proofs.«112847_j32109175505235_2_alg».proof.Proof.LibConcat3
import proofs.«112847_j32109175505235_2_alg».proof.Proof.Spec

set_option maxRecDepth 16384

noncomputable section

namespace Cert.KernelIdeal.EdgeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibRowSpec Cert.LibLayerForms Cert.LibConcat3 Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-tiled inputs and the two outputs take block `t` of the rows, every
    other window block `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_14.index t (0 : Fin 2) = t.val
    ∧ win0_14.index t (1 : Fin 2) = 0
    ∧ win0_15.index t (0 : Fin 2) = t.val
    ∧ win0_15.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-! ## The shape relations the body cites -/

theorem aff1 : KerAffRecs 2000 384 256 := ⟨shapeCasts_S384x256_S384x256, shapeCasts_S1x256_S1x256, broadcasts_S1x256_S2000x256⟩
theorem aff2 : KerAffRecs 2000 256 128 := ⟨shapeCasts_S256x128_S256x128, shapeCasts_S1x128_S1x128, broadcasts_S1x128_S2000x128⟩
theorem fmt32 : FKind.Formats .f32 := .inl rfl
theorem acc0 : (0x00000000#32 : BitVec 32) = FKind.add.neutral .f32 fmt32 := rfl
theorem nrm : KerNormRecs 2000 128 :=
  ⟨reduces_S2000x128_S2000, shapeCasts_S2000_S2000x1, broadcasts_S2000x1_S2000x128, shapeCasts_S1x128_S1x128, broadcasts_S1x128_S2000x128⟩

/-! ## The body's two stored values are the perceptron and the updated block -/

theorem pay_msg (x0 x1 : Vec Ideal S2000x128 .bf16) (x2 : Vec Ideal S2000x128 .f32) (x3 : Vec Ideal S384x256 .bf16) (x4 : Vec Ideal S1x256 .f32)
    (x5 : Vec Ideal S256x128 .bf16) (x6 : Vec Ideal S1x128 .f32) :
    k0_pay3 x0 x1 x2 x3 x4 x5 x6
      = kerMlp (φ₁ := .bf16) (φ₂ := .bf16) (φp := .bf16) aff1 aff2 bitsLt_bf16_f32 0x00000000#32 (k0_pay2 x0 x1 x2) x3 x4 x5 x6 := rfl

theorem pay_edge (x0 x1 : Vec Ideal S2000x128 .bf16) (x2 : Vec Ideal S2000x128 .f32) (x7 : Vec Ideal S384x256 .bf16) (x8 : Vec Ideal S1x256 .f32)
    (x9 : Vec Ideal S256x128 .bf16) (x10 : Vec Ideal S1x128 .f32) (x11 : Vec Ideal S128x128 .bf16) (x12 x13 : Vec Ideal S1x128 .f32) :
    k0_pay6 (k0_pay1 x2) (k0_pay4 x0 x1 x2 x7 x8) (k0_pay5 (F := Ideal)) x9 x10 x11 x12 x13
      = kerUpd (φe := .bf16) (φ₁ := .bf16) (φx := .bf16) (φ₂ := .bf16) (φp := .bf16) nrm fmt32 acc0 shapeCasts_S128x128_S128x128 aff1 aff2
          bitsLt_bf16_f32 0x43000000#32 0x358637BD#32 0x00000000#32 (k0_pay1 x2) (k0_pay2 x0 x1 x2) x11 x7 x8 x9 x10 x12 x13 := rfl

/-- Row `p` of the three staged pieces laid side by side is row `r` of the three arrays laid side by side, when rows `p`
    of the pieces are rows `r` of the arrays. -/
theorem row_inputs (x0 x1 : Vec Ideal S2000x128 .bf16) (x2 : Vec Ideal S2000x128 .f32) (SF RF ED : S600000x128.Idx → EReal)
    (p : Fin 2000) (r : Fin 600000)
    (h0 : ∀ q : Fin 128, x0 (ix2 p q) = SF (ix2 r q)) (h1 : ∀ q : Fin 128, x1 (ix2 p q) = RF (ix2 r q))
    (h2 : ∀ q : Fin 128, x2 (ix2 p q) = ED (ix2 r q)) :
    (fun k : Fin 384 => k0_pay2 x0 x1 x2 (ix2 p k)) = side3 (by rfl : 384 = 128 + 128 + 128) SF RF ED r := by
  funext k
  unfold k0_pay2 k0_pay1
  rw [shapeCast_self, shapeCast_self]
  refine (concatenate3_lanes_apply (α := EReal) (by rfl : 384 = 128 + 128 + 128) x0 x1 x2
    concatenates_S2000x128_S2000x128_S2000x128_S2000x384_d1 p k).trans ?_
  exact congrFun (side3_congr (by rfl : 384 = 128 + 128 + 128) h0 h1 h2) k

/-- The messages' block at a point, entry by entry. -/
theorem point_msg (x0 x1 : Vec Ideal S2000x128 .bf16) (x2 : Vec Ideal S2000x128 .f32) (W1 : Vec Ideal S384x256 .bf16) (B1 : Vec Ideal S1x256 .f32)
    (W2 : Vec Ideal S256x128 .bf16) (B2 : Vec Ideal S1x128 .f32) (SF RF ED : S600000x128.Idx → EReal)
    (p : Fin 2000) (q : Fin 128) (r : Fin 600000)
    (h0 : ∀ q : Fin 128, x0 (ix2 p q) = SF (ix2 r q)) (h1 : ∀ q : Fin 128, x1 (ix2 p q) = RF (ix2 r q))
    (h2 : ∀ q : Fin 128, x2 (ix2 p q) = ED (ix2 r q)) :
    k0_pay3 x0 x1 x2 W1 B1 W2 B2 (ix2 p q)
      = msgArr (side3 (by rfl : 384 = 128 + 128 + 128) SF RF ED) W1 (fun j => B1 (ix2 (0 : Fin 1) j)) W2 (fun c => B2 (ix2 (0 : Fin 1) c)) (ix2 r q) := by
  rw [pay_msg, kerMlp_apply, row_inputs x0 x1 x2 SF RF ED p r h0 h1 h2]
  rfl

/-- The new edge features' block at a point, entry by entry. -/
theorem point_edge (x0 x1 : Vec Ideal S2000x128 .bf16) (x2 : Vec Ideal S2000x128 .f32) (W1 : Vec Ideal S384x256 .bf16) (B1 : Vec Ideal S1x256 .f32)
    (W2 : Vec Ideal S256x128 .bf16) (B2 : Vec Ideal S1x128 .f32) (Pm : Vec Ideal S128x128 .bf16) (G Be : Vec Ideal S1x128 .f32)
    (SF RF ED : S600000x128.Idx → EReal) (p : Fin 2000) (q : Fin 128) (r : Fin 600000)
    (h0 : ∀ q : Fin 128, x0 (ix2 p q) = SF (ix2 r q)) (h1 : ∀ q : Fin 128, x1 (ix2 p q) = RF (ix2 r q))
    (h2 : ∀ q : Fin 128, x2 (ix2 p q) = ED (ix2 r q)) :
    k0_pay6 (k0_pay1 x2) (k0_pay4 x0 x1 x2 W1 B1) (k0_pay5 (F := Ideal)) W2 B2 Pm G Be (ix2 p q)
      = updArr ED (side3 (by rfl : 384 = 128 + 128 + 128) SF RF ED) Pm W1 (fun j => B1 (ix2 (0 : Fin 1) j)) W2 (fun c => B2 (ix2 (0 : Fin 1) c))
          (fun c => G (ix2 (0 : Fin 1) c)) (fun c => Be (ix2 (0 : Fin 1) c)) (ix2 r q) := by
  have he : (fun k : Fin 128 => k0_pay1 x2 (ix2 p k)) = fun k => ED (ix2 r k) := funext fun k => h2 k
  rw [pay_edge]
  refine (kerUpd_apply (φe := .bf16) (φ₁ := .bf16) (φx := .bf16) (φ₂ := .bf16) (φp := .bf16) nrm fmt32 acc0 shapeCasts_S128x128_S128x128 aff1 aff2
    bitsLt_bf16_f32 0x43000000#32 0x358637BD#32 0x00000000#32 (k0_pay1 x2) (k0_pay2 x0 x1 x2) Pm W1 B1 W2 B2 G Be p q).trans ?_
  rw [row_inputs x0 x1 x2 SF RF ED p r h0 h1 h2, he]
  rfl

/-! ## The windows' blocks -/

/-- Block `t` of window 0 holds rows `2000·t … 2000·t + 1999` of its array. -/
theorem iblk_rows0 (c : Dev nD) (t : Fin cfg0.N) (p : Fin 2000) (q : Fin 128) :
    iblk0 V c 0 t (ix2 p q) = V c main_v7 (ix2 (⟨t.val * 2000 + p.val, by have := t.isLt; have := p.isLt; show t.val * 2000 + p.val < 600000; have : t.val < 300 := t.isLt; omega⟩ : Fin 600000) q) := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V c main_v7 (((cfg0.win 0).blk t).view.emb (ix2 p q)) = _
  refine congrArg (V c main_v7) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * q.val = q.val; omega

/-- Block `t` of window 1 holds rows `2000·t … 2000·t + 1999` of its array. -/
theorem iblk_rows1 (c : Dev nD) (t : Fin cfg0.N) (p : Fin 2000) (q : Fin 128) :
    iblk0 V c 1 t (ix2 p q) = V c main_v14 (ix2 (⟨t.val * 2000 + p.val, by have := t.isLt; have := p.isLt; show t.val * 2000 + p.val < 600000; have : t.val < 300 := t.isLt; omega⟩ : Fin 600000) q) := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V c main_v14 (((cfg0.win 1).blk t).view.emb (ix2 p q)) = _
  refine congrArg (V c main_v14) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * q.val = q.val; omega

/-- Block `t` of window 2 holds rows `2000·t … 2000·t + 1999` of its array. -/
theorem iblk_rows2 (c : Dev nD) (t : Fin cfg0.N) (p : Fin 2000) (q : Fin 128) :
    iblk0 V c 2 t (ix2 p q) = V c main_arg1 (ix2 (⟨t.val * 2000 + p.val, by have := t.isLt; have := p.isLt; show t.val * 2000 + p.val < 600000; have : t.val < 300 := t.isLt; omega⟩ : Fin 600000) q) := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V c main_arg1 (((cfg0.win 2).blk t).view.emb (ix2 p q)) = _
  refine congrArg (V c main_arg1) (funext fun a => Fin.ext ?_)
  match a with
  | ⟨0, _⟩ => show win0_2.index t (0 : Fin 2) * 2000 + 1 * p.val = t.val * 2000 + p.val; omega
  | ⟨1, _⟩ => show win0_2.index t (1 : Fin 2) * 128 + 1 * q.val = q.val; omega

/-- Window 3 stages its whole array at every point. -/
theorem iblk_whole3 (c : Dev nD) (t : Fin cfg0.N) : iblk0 V c 3 t = V c main_v15 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v15 (((cfg0.win 3).blk t).view.emb y) = V c main_v15 y
  refine congrArg (V c main_v15) (funext fun a => Fin.ext ?_)
  match a with
  | ⟨0, _⟩ => show win0_3.index t (0 : Fin 2) * 384 + 1 * (y 0).val = (y 0).val; omega
  | ⟨1, _⟩ => show win0_3.index t (1 : Fin 2) * 256 + 1 * (y 1).val = (y 1).val; omega

/-- Window 4 stages its whole array at every point. -/
theorem iblk_whole4 (c : Dev nD) (t : Fin cfg0.N) : iblk0 V c 4 t = V c main_v23 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v23 (((cfg0.win 4).blk t).view.emb y) = V c main_v23 y
  refine congrArg (V c main_v23) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5 stages its whole array at every point. -/
theorem iblk_whole5 (c : Dev nD) (t : Fin cfg0.N) : iblk0 V c 5 t = V c main_v16 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v16 (((cfg0.win 5).blk t).view.emb y) = V c main_v16 y
  refine congrArg (V c main_v16) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- Window 6 stages its whole array at every point. -/
theorem iblk_whole6 (c : Dev nD) (t : Fin cfg0.N) : iblk0 V c 6 t = V c main_v24 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v24 (((cfg0.win 6).blk t).view.emb y) = V c main_v24 y
  refine congrArg (V c main_v24) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 stages its whole array at every point. -/
theorem iblk_whole7 (c : Dev nD) (t : Fin cfg0.N) : iblk0 V c 7 t = V c main_v17 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v17 (((cfg0.win 7).blk t).view.emb y) = V c main_v17 y
  refine congrArg (V c main_v17) (funext fun a => Fin.ext ?_)
  match a with
  | ⟨0, _⟩ => show win0_7.index t (0 : Fin 2) * 384 + 1 * (y 0).val = (y 0).val; omega
  | ⟨1, _⟩ => show win0_7.index t (1 : Fin 2) * 256 + 1 * (y 1).val = (y 1).val; omega

/-- Window 8 stages its whole array at every point. -/
theorem iblk_whole8 (c : Dev nD) (t : Fin cfg0.N) : iblk0 V c 8 t = V c main_v25 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v25 (((cfg0.win 8).blk t).view.emb y) = V c main_v25 y
  refine congrArg (V c main_v25) (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- Window 9 stages its whole array at every point. -/
theorem iblk_whole9 (c : Dev nD) (t : Fin cfg0.N) : iblk0 V c 9 t = V c main_v18 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v18 (((cfg0.win 9).blk t).view.emb y) = V c main_v18 y
  refine congrArg (V c main_v18) (funext fun a => Fin.ext ?_)
  match a with
  | ⟨0, _⟩ => show win0_9.index t (0 : Fin 2) * 256 + 1 * (y 0).val = (y 0).val; omega
  | ⟨1, _⟩ => show win0_9.index t (1 : Fin 2) * 128 + 1 * (y 1).val = (y 1).val; omega

/-- Window 10 stages its whole array at every point. -/
theorem iblk_whole10 (c : Dev nD) (t : Fin cfg0.N) : iblk0 V c 10 t = V c main_v26 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v26 (((cfg0.win 10).blk t).view.emb y) = V c main_v26 y
  refine congrArg (V c main_v26) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11 stages its whole array at every point. -/
theorem iblk_whole11 (c : Dev nD) (t : Fin cfg0.N) : iblk0 V c 11 t = V c main_v22 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v22 (((cfg0.win 11).blk t).view.emb y) = V c main_v22 y
  refine congrArg (V c main_v22) (funext fun a => Fin.ext ?_)
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12 stages its whole array at every point. -/
theorem iblk_whole12 (c : Dev nD) (t : Fin cfg0.N) : iblk0 V c 12 t = V c main_v29 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v29 (((cfg0.win 12).blk t).view.emb y) = V c main_v29 y
  refine congrArg (V c main_v29) (funext fun a => Fin.ext ?_)
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Window 13 stages its whole array at every point. -/
theorem iblk_whole13 (c : Dev nD) (t : Fin cfg0.N) : iblk0 V c 13 t = V c main_v30 := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext y
  show V c main_v30 (((cfg0.win 13).blk t).view.emb y) = V c main_v30 y
  refine congrArg (V c main_v30) (funext fun a => Fin.ext ?_)
  match a with
  | ⟨0, _⟩ => show win0_13.index t (0 : Fin 2) * 1 + 1 * (y 0).val = (y 0).val; omega
  | ⟨1, _⟩ => show win0_13.index t (1 : Fin 2) * 128 + 1 * (y 1).val = (y 1).val; omega

/-! ## From the blocks to the arrays -/

/-- The messages, as a function of the arrays the region finds. -/
def msgK (c : Dev nD) : S600000x128.Idx → EReal :=
  msgArr (side3 (by rfl : 384 = 128 + 128 + 128) (V c main_v7 : S600000x128.Idx → EReal) (V c main_v14 : S600000x128.Idx → EReal)
      (V c main_arg1 : S600000x128.Idx → EReal))
    (V c main_v15 : S384x256.Idx → EReal) (fun j => (V c main_v23 : S1x256.Idx → EReal) (ix2 (0 : Fin 1) j))
    (V c main_v16 : S256x128.Idx → EReal) (fun q => (V c main_v24 : S1x128.Idx → EReal) (ix2 (0 : Fin 1) q))

/-- The new edge features, as a function of the arrays the region finds. -/
def edgeK (c : Dev nD) : S600000x128.Idx → EReal :=
  updArr (V c main_arg1 : S600000x128.Idx → EReal)
    (side3 (by rfl : 384 = 128 + 128 + 128) (V c main_v7 : S600000x128.Idx → EReal) (V c main_v14 : S600000x128.Idx → EReal)
      (V c main_arg1 : S600000x128.Idx → EReal))
    (V c main_v22 : S128x128.Idx → EReal) (V c main_v17 : S384x256.Idx → EReal)
    (fun j => (V c main_v25 : S1x256.Idx → EReal) (ix2 (0 : Fin 1) j)) (V c main_v18 : S256x128.Idx → EReal)
    (fun q => (V c main_v26 : S1x128.Idx → EReal) (ix2 (0 : Fin 1) q)) (fun q => (V c main_v29 : S1x128.Idx → EReal) (ix2 (0 : Fin 1) q))
    (fun q => (V c main_v30 : S1x128.Idx → EReal) (ix2 (0 : Fin 1) q))

/-- Entry `(p, q)` of block `t` of output window 14 sits at row `2000·t + p`, lane `q` of its array. -/
theorem emb_out14 (t : Fin cfg0.N) (p : Fin 2000) (q : Fin 128) :
    ((cfg0.win 14).blk t).view.emb (ix2 p q)
      = ix2 (⟨t.val * 2000 + p.val, by have h1 : t.val < 300 := t.isLt; have h2 := p.isLt; show t.val * 2000 + p.val < 600000; omega⟩ : Fin 600000) q := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext a; apply Fin.ext
  match a with
  | ⟨0, _⟩ => show win0_14.index t (0 : Fin 2) * 2000 + 1 * p.val = t.val * 2000 + p.val; omega
  | ⟨1, _⟩ => show win0_14.index t (1 : Fin 2) * 128 + 1 * q.val = q.val; omega

/-- An index of the array is in point `t`'s block of window 14 iff each coordinate is in the block's range on its axis. -/
theorem mem_blk14 (t : Fin cfg0.N) (i : S600000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v31_0).slice (win0_14.rect t)).set ↔ _
  rw [View.set_slice_whole, Rect.mem_set_unit]
  exact Iff.rfl

/-- The 300 blocks of window 14 tile the array: row `r` is in block `r / 2000`. -/
theorem cover14 (i : S600000x128.Idx) : ∃ t : Fin cfg0.N, (cfg0.win 14).flush t = true ∧ i ∈ ((cfg0.win 14).blk t).view.set := by
  have hi0 : (i 0).val < 600000 := (i 0).isLt
  have hi1 : (i 1).val < 128 := (i 1).isLt
  have ht : (i 0).val / 2000 < 300 := by omega
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts (⟨(i 0).val / 2000, ht⟩ : Fin cfg0.N)
  refine ⟨⟨(i 0).val / 2000, ht⟩, flush0_14 _, ?_⟩
  rw [mem_blk14]
  intro a
  match a with
  | ⟨0, _⟩ =>
    show win0_14.index ⟨(i 0).val / 2000, ht⟩ (0 : Fin 2) * 2000 ≤ (i 0).val ∧ (i 0).val < win0_14.index ⟨(i 0).val / 2000, ht⟩ (0 : Fin 2) * 2000 + 2000
    have hv : (⟨(i 0).val / 2000, ht⟩ : Fin cfg0.N).val = (i 0).val / 2000 := rfl
    omega
  | ⟨1, _⟩ =>
    show win0_14.index ⟨(i 0).val / 2000, ht⟩ (1 : Fin 2) * 128 ≤ (i 1).val ∧ (i 1).val < win0_14.index ⟨(i 0).val / 2000, ht⟩ (1 : Fin 2) * 128 + 128
    omega

/-- Entry `(p, q)` of block `t` of output window 15 sits at row `2000·t + p`, lane `q` of its array. -/
theorem emb_out15 (t : Fin cfg0.N) (p : Fin 2000) (q : Fin 128) :
    ((cfg0.win 15).blk t).view.emb (ix2 p q)
      = ix2 (⟨t.val * 2000 + p.val, by have h1 : t.val < 300 := t.isLt; have h2 := p.isLt; show t.val * 2000 + p.val < 600000; omega⟩ : Fin 600000) q := by
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext a; apply Fin.ext
  match a with
  | ⟨0, _⟩ => show win0_15.index t (0 : Fin 2) * 2000 + 1 * p.val = t.val * 2000 + p.val; omega
  | ⟨1, _⟩ => show win0_15.index t (1 : Fin 2) * 128 + 1 * q.val = q.val; omega

/-- An index of the array is in point `t`'s block of window 15 iff each coordinate is in the block's range on its axis. -/
theorem mem_blk15 (t : Fin cfg0.N) (i : S600000x128.Idx) :
    i ∈ ((cfg0.win 15).blk t).view.set ↔ ∀ a : Fin 2, win0_15.index t a * S2000x128.size a ≤ (i a).val ∧ (i a).val < win0_15.index t a * S2000x128.size a + S2000x128.size a := by
  show i ∈ ((View.whole main_v31_1).slice (win0_15.rect t)).set ↔ _
  rw [View.set_slice_whole, Rect.mem_set_unit]
  exact Iff.rfl

/-- The 300 blocks of window 15 tile the array: row `r` is in block `r / 2000`. -/
theorem cover15 (i : S600000x128.Idx) : ∃ t : Fin cfg0.N, (cfg0.win 15).flush t = true ∧ i ∈ ((cfg0.win 15).blk t).view.set := by
  have hi0 : (i 0).val < 600000 := (i 0).isLt
  have hi1 : (i 1).val < 128 := (i 1).isLt
  have ht : (i 0).val / 2000 < 300 := by omega
  obtain ⟨e0_0, e0_1, e1_0, e1_1, e2_0, e2_1, e14_0, e14_1, e15_0, e15_1, e3_0, e3_1, e4_0, e4_1, e5_0, e5_1, e6_0, e6_1, e7_0, e7_1, e8_0, e8_1, e9_0, e9_1, e10_0, e10_1, e11_0, e11_1, e12_0, e12_1, e13_0, e13_1⟩ := idx_facts (⟨(i 0).val / 2000, ht⟩ : Fin cfg0.N)
  refine ⟨⟨(i 0).val / 2000, ht⟩, flush0_15 _, ?_⟩
  rw [mem_blk15]
  intro a
  match a with
  | ⟨0, _⟩ =>
    show win0_15.index ⟨(i 0).val / 2000, ht⟩ (0 : Fin 2) * 2000 ≤ (i 0).val ∧ (i 0).val < win0_15.index ⟨(i 0).val / 2000, ht⟩ (0 : Fin 2) * 2000 + 2000
    have hv : (⟨(i 0).val / 2000, ht⟩ : Fin cfg0.N).val = (i 0).val / 2000 := rfl
    omega
  | ⟨1, _⟩ =>
    show win0_15.index ⟨(i 0).val / 2000, ht⟩ (1 : Fin 2) * 128 ≤ (i 1).val ∧ (i 1).val < win0_15.index ⟨(i 0).val / 2000, ht⟩ (1 : Fin 2) * 128 + 128
    omega

/-- What point `t` writes back through window 14 is block `t` of the messages. -/
theorem flushed14 (c : Dev nD) (t : Fin cfg0.N) :
    (dat0 V c).flushed 14 t = ((cfg0.win 14).blk t).view.read (Elt Ideal) (msgK V c) := by
  show (cfg0.win 14).cut (grid0.coords t) ((dat0 V c).after 14 t) = _
  rw [after0_14]
  unfold out0_14
  rw [View.canon_unit_zero hz]
  simp only [View.ld_unit_zero (S := S2000x128) hz, View.ld_unit_zero (S := S384x256) hz, View.ld_unit_zero (S := S1x256) hz,
    View.ld_unit_zero (S := S256x128) hz, View.ld_unit_zero (S := S1x128) hz]
  rw [iblk_whole3 V c t, iblk_whole4 V c t, iblk_whole5 V c t, iblk_whole6 V c t]
  funext j
  obtain ⟨p, q, rfl⟩ : ∃ (p : Fin 2000) (q : Fin 128), j = ix2 p q := ⟨j 0, j 1, eq_ix2 j⟩
  show k0_pay3 (iblk0 V c 0 t) (iblk0 V c 1 t) (iblk0 V c 2 t) (V c main_v15) (V c main_v23) (V c main_v16) (V c main_v24) (ix2 p q)
    = msgK V c (((cfg0.win 14).blk t).view.emb (ix2 p q))
  rw [emb_out14 t p q]
  exact point_msg (iblk0 V c 0 t) (iblk0 V c 1 t) (iblk0 V c 2 t) (V c main_v15) (V c main_v23) (V c main_v16) (V c main_v24)
    (V c main_v7) (V c main_v14) (V c main_arg1) p q _ (fun q' => iblk_rows0 V c t p q') (fun q' => iblk_rows1 V c t p q')
    (fun q' => iblk_rows2 V c t p q')

/-- What point `t` writes back through window 15 is block `t` of the new edge features. -/
theorem flushed15 (c : Dev nD) (t : Fin cfg0.N) :
    (dat0 V c).flushed 15 t = ((cfg0.win 15).blk t).view.read (Elt Ideal) (edgeK V c) := by
  show (cfg0.win 15).cut (grid0.coords t) ((dat0 V c).after 15 t) = _
  rw [after0_15]
  unfold out0_15
  rw [View.canon_unit_zero hz]
  simp only [View.ld_unit_zero (S := S2000x128) hz, View.ld_unit_zero (S := S384x256) hz, View.ld_unit_zero (S := S1x256) hz,
    View.ld_unit_zero (S := S256x128) hz, View.ld_unit_zero (S := S1x128) hz, View.ld_unit_zero (S := S128x128) hz]
  rw [iblk_whole7 V c t, iblk_whole8 V c t, iblk_whole9 V c t, iblk_whole10 V c t, iblk_whole11 V c t, iblk_whole12 V c t,
    iblk_whole13 V c t]
  funext j
  obtain ⟨p, q, rfl⟩ : ∃ (p : Fin 2000) (q : Fin 128), j = ix2 p q := ⟨j 0, j 1, eq_ix2 j⟩
  show k0_pay6 (k0_pay1 (iblk0 V c 2 t)) (k0_pay4 (iblk0 V c 0 t) (iblk0 V c 1 t) (iblk0 V c 2 t) (V c main_v17) (V c main_v25)) (k0_pay5 (F := Ideal))
      (V c main_v18) (V c main_v26) (V c main_v22) (V c main_v29) (V c main_v30) (ix2 p q)
    = edgeK V c (((cfg0.win 15).blk t).view.emb (ix2 p q))
  rw [emb_out15 t p q]
  exact point_edge (iblk0 V c 0 t) (iblk0 V c 1 t) (iblk0 V c 2 t) (V c main_v17) (V c main_v25) (V c main_v18) (V c main_v26)
    (V c main_v22) (V c main_v29) (V c main_v30) (V c main_v7) (V c main_v14) (V c main_arg1) p q _
    (fun q' => iblk_rows0 V c t p q') (fun q' => iblk_rows1 V c t p q') (fun q' => iblk_rows2 V c t p q')

/-- After the region the first output array holds the messages … -/
theorem final14 (c : Dev nD) : (dat0 V c).arrAt 14 cfg0.N = msgK V c :=
  (dat0 V c).arrAt_eq_of_cover 14 (msgK V c) (fun t _ => flushed14 V c t) cover14

/-- … and the second the new edge features. -/
theorem final15 (c : Dev nD) : (dat0 V c).arrAt 15 cfg0.N = edgeK V c :=
  (dat0 V c).arrAt_eq_of_cover 15 (edgeK V c) (fun t _ => flushed15 V c t) cover15

end Cert.KernelIdeal.EdgeRegion

end
-- ==== Proof.NodeRegion.lean ====
/-
  The node region of the idealized kernel, read as a whole array.

  The region runs over 25 points; point `t` stages rows `2000·t … 2000·t + 1999` of the node features and of the
  scatter-added messages, and the whole of every weight, bias, gain and offset array. Its body writes one block of 2000
  rows: the layer normalisation of `node · Wn + perceptron(node beside sum)`. Row `p` of the block depends only on rows
  `p` of the two staged blocks, so block `t` is the restriction of one whole-array function, and the 25 blocks tile the
  50000 rows: the output array ends holding that function (`final9`). Stated at whatever the buffers hold when the region
  is entered (`V`).
-/
import proofs.«112847_j32109175505235_2_alg».proof.Proof.Gen.KernelIdeal.Frame
import proofs.«112847_j32109175505235_2_alg».proof.Proof.LibLayerForms
import proofs.«112847_j32109175505235_2_alg».proof.Proof.LibConcat3
import proofs.«112847_j32109175505235_2_alg».proof.Proof.Spec

set_option maxRecDepth 16384

noncomputable section

namespace Cert.KernelIdeal.NodeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibRowSpec Cert.LibLayerForms Cert.LibConcat3 Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two row-tiled inputs and the output take block `t` of the rows, every other
    window block `(0, 0)`. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-! ## The shape relations the body cites -/

theorem aff1 : KerAffRecs 2000 256 256 := ⟨shapeCasts_S256x256_S256x256, shapeCasts_S1x256_S1x256, broadcasts_S1x256_S2000x256⟩
theorem aff2 : KerAffRecs 2000 256 128 := ⟨shapeCasts_S256x128_S256x128, shapeCasts_S1x128_S1x128, broadcasts_S1x128_S2000x128⟩
theorem fmt32 : FKind.Formats .f32 := .inl rfl
theorem acc0 : (0x00000000#32 : BitVec 32) = FKind.add.neutral .f32 fmt32 := rfl
theorem nrm : KerNormRecs 2000 128 :=
  ⟨reduces_S2000x128_S2000, shapeCasts_S2000_S2000x1, broadcasts_S2000x1_S2000x128, shapeCasts_S1x128_S1x128, broadcasts_S1x128_S2000x128⟩

/-! ## The body's stored value is the updated block -/

theorem pay_node (x0 x1 : Vec Ideal S2000x128 .f32) (x2 : Vec Ideal S256x256 .bf16) (x3 : Vec Ideal S1x256 .f32) (x4 : Vec Ideal S256x128 .bf16)
    (x5 : Vec Ideal S1x128 .f32) (x6 : Vec Ideal S128x128 .bf16) (x7 x8 : Vec Ideal S1x128 .f32) :
    k1_pay1 (k1_pay2 x0 x1 x2 x3 x4 x5 x6) (k1_pay3 x0 x1 x2 x3 x4 x5 x6) (k1_pay4 x0 x1 x2 x3 x4 x5 x6) (k1_pay5 (F := Ideal)) x7 x8
      = kerUpd (φe := .bf16) (φ₁ := .bf16) (φx := .bf16) (φ₂ := .bf16) (φp := .bf16) nrm fmt32 acc0 shapeCasts_S128x128_S128x128 aff1 aff2
          bitsLt_bf16_f32 0x43000000#32 0x358637BD#32 0x00000000#32 (truncf .bf16 x0 bitsLt_bf16_f32 : FVec Ideal S2000x128 .bf16)
          (concatenate S2000x256 1 [⟨S2000x128, (truncf .bf16 x0 bitsLt_bf16_f32 : FVec Ideal S2000x128 .bf16)⟩, ⟨S2000x128, (truncf .bf16 (shapeCast S2000x128 x1 shapeCasts_S2000x128_S2000x128) bitsLt_bf16_f32 : FVec Ideal S2000x128 .bf16)⟩] concatenates_S2000x128_S2000x128_S2000x256_d1) x6 x2 x3 x4 x5 x7 x8 := rfl

/-- Row `p` of the two staged pieces laid side by side is row `r` of the two arrays laid side by side. -/
theorem row_inputs (x0 x1 : Vec Ideal S2000x128 .f32) (ND AG : S50000x128.Idx → EReal) (p : Fin 2000) (r : Fin 50000)
    (h0 : ∀ q : Fin 128, x0 (ix2 p q) = ND (ix2 r q)) (h1 : ∀ q : Fin 128, x1 (ix2 p q) = AG (ix2 r q)) :
    (fun k : Fin 256 => (concatenate S2000x256 1 [⟨S2000x128, (truncf .bf16 x0 bitsLt_bf16_f32 : FVec Ideal S2000x128 .bf16)⟩, ⟨S2000x128, (truncf .bf16 (shapeCast S2000x128 x1 shapeCasts_S2000x128_S2000x128) bitsLt_bf16_f32 : FVec Ideal S2000x128 .bf16)⟩] concatenates_S2000x128_S2000x128_S2000x256_d1) (ix2 p k)) = side2 (by rfl : 256 = 128 + 128) ND AG r := by
  funext k
  rw [shapeCast_self]
  refine (concatenate2_lanes_apply (α := EReal) (by rfl : 256 = 128 + 128) x0 x1 concatenates_S2000x128_S2000x128_S2000x256_d1 p k).trans ?_
  exact congrFun (side2_congr (by rfl : 256 = 128 + 128) h0 h1) k

/-- The new node features' block at a point, entry by entry. -/
theorem point_node (x0 x1 : Vec Ideal S2000x128 .f32) (W1 : Vec Ideal S256x256 .bf16) (B1 : Vec Ideal S1x256 .f32) (W2 : Vec Ideal S256x128 .bf16)
    (B2 : Vec Ideal S1x128 .f32) (Pm : Vec Ideal S128x128 .bf16) (G Be : Vec Ideal S1x128 .f32) (ND AG : S50000x128.Idx → EReal)
    (p : Fin 2000) (q : Fin 128) (r : Fin 50000)
    (h0 : ∀ q : Fin 128, x0 (ix2 p q) = ND (ix2 r q)) (h1 : ∀ q : Fin 128, x1 (ix2 p q) = AG (ix2 r q)) :
    k1_pay1 (k1_pay2 x0 x1 W1 B1 W2 B2 Pm) (k1_pay3 x0 x1 W1 B1 W2 B2 Pm) (k1_pay4 x0 x1 W1 B1 W2 B2 Pm) (k1_pay5 (F := Ideal)) G Be (ix2 p q)
      = updArr ND (side2 (by rfl : 256 = 128 + 128) ND AG) Pm W1 (fun j => B1 (ix2 (0 : Fin 1) j)) W2 (fun c => B2 (ix2 (0 : Fin 1) c))
          (fun c => G (ix2 (0 : Fin 1) c)) (fun c => Be (ix2 (0 : Fin 1) c)) (ix2 r q) := by
  have he : (fun k : Fin 128 => (truncf .bf16 x0 bitsLt_bf16_f32 : FVec Ideal S2000x128 .bf16) (ix2 p k)) = fun k => ND (ix2 r k) :=
    funext fun k => h0 k
  rw [pay_node]
  refine (kerUpd_apply (φe := .bf16) (φ₁ := .bf16) (φx := .bf16) (φ₂ := .bf16) (φp := .bf16) nrm fmt32 acc0 shapeCasts_S128x128_S128x128 aff1 aff2
    bitsLt_bf16_f32 0x43000000#32 0x358637BD#32 0x00000000#32 (truncf .bf16 x0 bitsLt_bf16_f32 : FVec Ideal S2000x128 .bf16)
    (concatenate S2000x256 1 [⟨S2000x128, (truncf .bf16 x0 bitsLt_bf16_f32 : FVec Ideal S2000x128 .bf16)⟩, ⟨S2000x128, (truncf .bf16 (shapeCast S2000x128 x1 shapeCasts_S2000x128_S2000x128) bitsLt_bf16_f32 : FVec Ideal S2000x128 .bf16)⟩] concatenates_S2000x128_S2000x128_S2000x256_d1) Pm W1 B1 W2 B2 G Be p q).trans ?_
  rw [row_inputs x0 x1 ND AG p r h0 h1, he]
  rfl

/-! ## The windows' blocks -/

/-- Block `t` of window 0 holds rows `2000·t … 2000·t + 1999` of its array. -/
theorem iblk_rows0 (c : Dev nD) (t : Fin cfg1.N) (p : Fin 2000) (q : Fin 128) :
    iblk1 V c 0 t (ix2 p q) = V c main_arg0 (ix2 (⟨t.val * 2000 + p.val, by have h1 : t.val < 25 := t.isLt; have h2 := p.isLt; show t.val * 2000 + p.val < 50000; omega⟩ : Fin 50000) q) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg0 (((cfg1.win 0).blk t).view.emb (ix2 p q)) = _
  refine congrArg (V c main_arg0) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * q.val = q.val; omega

/-- Block `t` of window 1 holds rows `2000·t … 2000·t + 1999` of its array. -/
theorem iblk_rows1 (c : Dev nD) (t : Fin cfg1.N) (p : Fin 2000) (q : Fin 128) :
    iblk1 V c 1 t (ix2 p q) = V c main_v34 (ix2 (⟨t.val * 2000 + p.val, by have h1 : t.val < 25 := t.isLt; have h2 := p.isLt; show t.val * 2000 + p.val < 50000; omega⟩ : Fin 50000) q) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v34 (((cfg1.win 1).blk t).view.emb (ix2 p q)) = _
  refine congrArg (V c main_v34) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * q.val = q.val; omega

/-- Window 2 stages its whole array at every point. -/
theorem iblk_whole2 (c : Dev nD) (t : Fin cfg1.N) : iblk1 V c 2 t = V c main_v19 := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext y
  show V c main_v19 (((cfg1.win 2).blk t).view.emb y) = V c main_v19 y
  refine congrArg (V c main_v19) (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- Window 3 stages its whole array at every point. -/
theorem iblk_whole3 (c : Dev nD) (t : Fin cfg1.N) : iblk1 V c 3 t = V c main_v27 := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext y
  show V c main_v27 (((cfg1.win 3).blk t).view.emb y) = V c main_v27 y
  refine congrArg (V c main_v27) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- Window 4 stages its whole array at every point. -/
theorem iblk_whole4 (c : Dev nD) (t : Fin cfg1.N) : iblk1 V c 4 t = V c main_v20 := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext y
  show V c main_v20 (((cfg1.win 4).blk t).view.emb y) = V c main_v20 y
  refine congrArg (V c main_v20) (funext fun a => Fin.ext ?_)
  match a with
  | ⟨0, _⟩ => show win1_4.index t (0 : Fin 2) * 256 + 1 * (y 0).val = (y 0).val; omega
  | ⟨1, _⟩ => show win1_4.index t (1 : Fin 2) * 128 + 1 * (y 1).val = (y 1).val; omega

/-- Window 5 stages its whole array at every point. -/
theorem iblk_whole5 (c : Dev nD) (t : Fin cfg1.N) : iblk1 V c 5 t = V c main_v28 := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext y
  show V c main_v28 (((cfg1.win 5).blk t).view.emb y) = V c main_v28 y
  refine congrArg (V c main_v28) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 stages its whole array at every point. -/
theorem iblk_whole6 (c : Dev nD) (t : Fin cfg1.N) : iblk1 V c 6 t = V c main_v21 := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext y
  show V c main_v21 (((cfg1.win 6).blk t).view.emb y) = V c main_v21 y
  refine congrArg (V c main_v21) (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- Window 7 stages its whole array at every point. -/
theorem iblk_whole7 (c : Dev nD) (t : Fin cfg1.N) : iblk1 V c 7 t = V c main_v29 := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext y
  show V c main_v29 (((cfg1.win 7).blk t).view.emb y) = V c main_v29 y
  refine congrArg (V c main_v29) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8 stages its whole array at every point. -/
theorem iblk_whole8 (c : Dev nD) (t : Fin cfg1.N) : iblk1 V c 8 t = V c main_v30 := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext y
  show V c main_v30 (((cfg1.win 8).blk t).view.emb y) = V c main_v30 y
  refine congrArg (V c main_v30) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-! ## From the blocks to the array -/

/-- The new node features, as a function of the arrays the region finds. -/
def nodeK (c : Dev nD) : S50000x128.Idx → EReal :=
  updArr (V c main_arg0 : S50000x128.Idx → EReal)
    (side2 (by rfl : 256 = 128 + 128) (V c main_arg0 : S50000x128.Idx → EReal) (V c main_v34 : S50000x128.Idx → EReal))
    (V c main_v21 : S128x128.Idx → EReal) (V c main_v19 : S256x256.Idx → EReal)
    (fun j => (V c main_v27 : S1x256.Idx → EReal) (ix2 (0 : Fin 1) j)) (V c main_v20 : S256x128.Idx → EReal)
    (fun q => (V c main_v28 : S1x128.Idx → EReal) (ix2 (0 : Fin 1) q)) (fun q => (V c main_v29 : S1x128.Idx → EReal) (ix2 (0 : Fin 1) q))
    (fun q => (V c main_v30 : S1x128.Idx → EReal) (ix2 (0 : Fin 1) q))

/-- Entry `(p, q)` of block `t` of the output window sits at row `2000·t + p`, lane `q` of its array. -/
theorem emb_out9 (t : Fin cfg1.N) (p : Fin 2000) (q : Fin 128) :
    ((cfg1.win 9).blk t).view.emb (ix2 p q)
      = ix2 (⟨t.val * 2000 + p.val, by have h1 : t.val < 25 := t.isLt; have h2 := p.isLt; show t.val * 2000 + p.val < 50000; omega⟩ : Fin 50000) q := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext a; apply Fin.ext
  match a with
  | ⟨0, _⟩ => show win1_9.index t (0 : Fin 2) * 2000 + 1 * p.val = t.val * 2000 + p.val; omega
  | ⟨1, _⟩ => show win1_9.index t (1 : Fin 2) * 128 + 1 * q.val = q.val; omega

/-- An index of the array is in point `t`'s block iff each coordinate is in the block's range on its axis. -/
theorem mem_blk9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v35).slice (win1_9.rect t)).set ↔ _
  rw [View.set_slice_whole, Rect.mem_set_unit]
  exact Iff.rfl

/-- The 25 blocks tile the array: row `r` is in block `r / 2000`. -/
theorem cover9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have ht : (i 0).val / 2000 < 25 := by omega
  obtain ⟨e0_0, e0_1, e1_0, e1_1, e9_0, e9_1, e2_0, e2_1, e3_0, e3_1, e4_0, e4_1, e5_0, e5_1, e6_0, e6_1, e7_0, e7_1, e8_0, e8_1⟩ := idx_facts (⟨(i 0).val / 2000, ht⟩ : Fin cfg1.N)
  refine ⟨⟨(i 0).val / 2000, ht⟩, flush1_9 _, ?_⟩
  rw [mem_blk9]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    have hv : (⟨(i 0).val / 2000, ht⟩ : Fin cfg1.N).val = (i 0).val / 2000 := rfl
    omega
  | ⟨1, _⟩ =>
    show win1_9.index ⟨(i 0).val / 2000, ht⟩ (1 : Fin 2) * 128 ≤ (i 1).val ∧ (i 1).val < win1_9.index ⟨(i 0).val / 2000, ht⟩ (1 : Fin 2) * 128 + 128
    omega

/-- What point `t` writes back is block `t` of the new node features. -/
theorem flushed9 (c : Dev nD) (t : Fin cfg1.N) :
    (dat1 V c).flushed 9 t = ((cfg1.win 9).blk t).view.read (Elt Ideal) (nodeK V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S256x256) hz, View.ld_unit_zero (S := S1x256) hz,
    View.ld_unit_zero (S := S256x128) hz, View.ld_unit_zero (S := S1x128) hz, View.ld_unit_zero (S := S128x128) hz]
  rw [iblk_whole2 V c t, iblk_whole3 V c t, iblk_whole4 V c t, iblk_whole5 V c t, iblk_whole6 V c t, iblk_whole7 V c t, iblk_whole8 V c t]
  funext j
  obtain ⟨p, q, rfl⟩ : ∃ (p : Fin 2000) (q : Fin 128), j = ix2 p q := ⟨j 0, j 1, eq_ix2 j⟩
  show k1_pay1 (k1_pay2 (iblk1 V c 0 t) (iblk1 V c 1 t) (V c main_v19) (V c main_v27) (V c main_v20) (V c main_v28) (V c main_v21))
      (k1_pay3 (iblk1 V c 0 t) (iblk1 V c 1 t) (V c main_v19) (V c main_v27) (V c main_v20) (V c main_v28) (V c main_v21))
      (k1_pay4 (iblk1 V c 0 t) (iblk1 V c 1 t) (V c main_v19) (V c main_v27) (V c main_v20) (V c main_v28) (V c main_v21))
      (k1_pay5 (F := Ideal)) (V c main_v29) (V c main_v30) (ix2 p q)
    = nodeK V c (((cfg1.win 9).blk t).view.emb (ix2 p q))
  rw [emb_out9 t p q]
  exact point_node (iblk1 V c 0 t) (iblk1 V c 1 t) (V c main_v19) (V c main_v27) (V c main_v20) (V c main_v28) (V c main_v21)
    (V c main_v29) (V c main_v30) (V c main_arg0) (V c main_v34) p q _ (fun q' => iblk_rows0 V c t p q') (fun q' => iblk_rows1 V c t p q')

/-- After the region the output array holds the new node features. -/
theorem final9 (c : Dev nD) : (dat1 V c).arrAt 9 cfg1.N = nodeK V c :=
  (dat1 V c).arrAt_eq_of_cover 9 (nodeK V c) (fun t _ => flushed9 V c t) cover9

end Cert.KernelIdeal.NodeRegion

end
-- ==== Proof.RefSide.lean ====
/-
  The reference program's two results, read as whole arrays defined row by row.

  The reference gathers sender and receiver features, lays them beside the edge features, and applies the message
  perceptron with whole-array operations; it scatter-adds the messages into the nodes, lays the sums beside the node
  features, and applies the node perceptron, the residual projection and the layer normalisation; the edges go through
  their own perceptron, residual projection and the same normalisation. Each of these whole-array compositions is the
  host spelling of a row-wise function, so each result is `msgArr` or `updArr` of the argument arrays; the gathers and
  the scatter-add stay as the operations they are.
-/
import proofs.«112847_j32109175505235_2_alg».proof.Proof.Gen.ReferenceIdeal.Read
import proofs.«112847_j32109175505235_2_alg».proof.Proof.LibHostLayer
import proofs.«112847_j32109175505235_2_alg».proof.Proof.LibLayerForms
import proofs.«112847_j32109175505235_2_alg».proof.Proof.LibConcat3
import proofs.«112847_j32109175505235_2_alg».proof.Proof.Spec

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.LibHostLayer Cert.LibLayerForms Cert.LibConcat3 Cert.GraphLayer

/-! ## The shape relations the reference cites -/

theorem lanesE256 : LaneRecs 600000 256 := ⟨bcast_S256_S1x256_1, bcast_S1x256_S600000x256_0_1⟩
theorem lanesE128 : LaneRecs 600000 128 := ⟨bcast_S128_S1x128_1, bcast_S1x128_S600000x128_0_1⟩
theorem lanesN256 : LaneRecs 50000 256 := ⟨bcast_S256_S1x256_1, bcast_S1x256_S50000x256_0_1⟩
theorem lanesN128 : LaneRecs 50000 128 := ⟨bcast_S128_S1x128_1, bcast_S1x128_S50000x128_0_1⟩
theorem normE : NormRecs 600000 128 :=
  ⟨reducesTo_S600000x128_S600000_d1, by decide, h_S_, bcast_S600000_S600000x1_0, bcast_S_S600000x1, bcast_S600000x1_S600000x128_0_1⟩
theorem normN : NormRecs 50000 128 :=
  ⟨reducesTo_S50000x128_S50000_d1, by decide, h_S_, bcast_S50000_S50000x1_0, bcast_S_S50000x1, bcast_S50000x1_S50000x128_0_1⟩

/-- The three pieces of an edge's input row, side by side, are the rows of the reference's concatenation. -/
theorem edge_rows (x0 : (⟨S50000x128, .f32⟩ : BufTy).Contents (Elt Ideal)) (x1 : (⟨S600000x128, .f32⟩ : BufTy).Contents (Elt Ideal)) (x2 : (⟨S600000, .i32⟩ : BufTy).Contents (Elt Ideal)) (x3 : (⟨S600000, .i32⟩ : BufTy).Contents (Elt Ideal)) :
    (fun (r : Fin 600000) (k : Fin 384) => val_main_v14 (F := Ideal) x0 x1 x2 x3 (ix2 r k))
      = side3 (by rfl : 384 = 128 + 128 + 128) (val_main_v6 (F := Ideal) x0 x2 : S600000x128.Idx → EReal)
          (val_main_v13 (F := Ideal) x0 x3 : S600000x128.Idx → EReal) (x1 : S600000x128.Idx → EReal) := by
  funext r k
  exact concatenate3_lanes_apply (α := EReal) (by rfl : 384 = 128 + 128 + 128) (val_main_v6 (F := Ideal) x0 x2) (val_main_v13 (F := Ideal) x0 x3) x1
    concatenates_S600000x128_S600000x128_S600000x128_S600000x384_d1 r k

/-- The messages. -/
theorem msgs_eq (x0 : (⟨S50000x128, .f32⟩ : BufTy).Contents (Elt Ideal)) (x1 : (⟨S600000x128, .f32⟩ : BufTy).Contents (Elt Ideal)) (x2 : (⟨S600000, .i32⟩ : BufTy).Contents (Elt Ideal)) (x3 : (⟨S600000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) :
    val_main_v23 (F := Ideal) x0 x1 x2 x3 x4 x5 x6 x7
      = msgArr (side3 (by rfl : 384 = 128 + 128 + 128) (val_main_v6 (F := Ideal) x0 x2 : S600000x128.Idx → EReal)
          (val_main_v13 (F := Ideal) x0 x3 : S600000x128.Idx → EReal) (x1 : S600000x128.Idx → EReal))
        x4 (fun j => x5 (ix1 j)) x6 (fun c => x7 (ix1 c)) := by
  have h : val_main_v23 (F := Ideal) x0 x1 x2 x3 x4 x5 x6 x7
      = hostMlp lanesE256 bcast_S_S600000x256 lanesE128 wZero (val_main_v14 (F := Ideal) x0 x1 x2 x3) x4 x5 x6 x7 := rfl
  rw [h, hostMlp_eq, edge_rows]

/-- The new node features: the node's own features beside the scatter-added messages go through `updArr`. -/
theorem nodes_eq (x0 : (⟨S50000x128, .f32⟩ : BufTy).Contents (Elt Ideal)) (x1 : (⟨S600000x128, .f32⟩ : BufTy).Contents (Elt Ideal)) (x2 : (⟨S600000, .i32⟩ : BufTy).Contents (Elt Ideal)) (x3 : (⟨S600000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x16 : (⟨S128x128, .f32⟩ : BufTy).Contents (Elt Ideal)) (x18 : (⟨S128, .f32⟩ : BufTy).Contents (Elt Ideal)) (x19 : (⟨S128, .f32⟩ : BufTy).Contents (Elt Ideal)) :
    val_main_v62 (F := Ideal) x0 x1 x2 x3 x4 x5 x6 x7 x8 x9 x10 x11 x16 x18 x19
      = updArr (x0 : S50000x128.Idx → EReal)
          (side2 (by rfl : 256 = 128 + 128) (x0 : S50000x128.Idx → EReal) (val_main_v26 (F := Ideal) x0 x1 x2 x3 x4 x5 x6 x7 : S50000x128.Idx → EReal))
          x16 x8 (fun j => x9 (ix1 j)) x10 (fun c => x11 (ix1 c)) (fun c => x18 (ix1 c)) (fun c => x19 (ix1 c)) := by
  have h : val_main_v62 (F := Ideal) x0 x1 x2 x3 x4 x5 x6 x7 x8 x9 x10 x11 x16 x18 x19
      = hostUpd normN lanesN128 lanesN256 bcast_S_S50000x256 w128 wEps wZero x0 (val_main_v27 (F := Ideal) x0 x1 x2 x3 x4 x5 x6 x7) x16 x8 x9 x10 x11 x18 x19 := rfl
  have hrows : (fun (r : Fin 50000) (k : Fin 256) => val_main_v27 (F := Ideal) x0 x1 x2 x3 x4 x5 x6 x7 (ix2 r k))
      = side2 (by rfl : 256 = 128 + 128) (x0 : S50000x128.Idx → EReal) (val_main_v26 (F := Ideal) x0 x1 x2 x3 x4 x5 x6 x7 : S50000x128.Idx → EReal) := by
    funext r k
    exact concatenate2_lanes_apply (α := EReal) (by rfl : 256 = 128 + 128) x0 (val_main_v26 (F := Ideal) x0 x1 x2 x3 x4 x5 x6 x7)
      concatenates_S50000x128_S50000x128_S50000x256_d1 r k
  rw [h, hostUpd_eq, hrows]

/-- The new edge features. -/
theorem edges_eq (x0 : (⟨S50000x128, .f32⟩ : BufTy).Contents (Elt Ideal)) (x1 : (⟨S600000x128, .f32⟩ : BufTy).Contents (Elt Ideal)) (x2 : (⟨S600000, .i32⟩ : BufTy).Contents (Elt Ideal)) (x3 : (⟨S600000, .i32⟩ : BufTy).Contents (Elt Ideal)) (x12 : (⟨S384x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x17 : (⟨S128x128, .f32⟩ : BufTy).Contents (Elt Ideal)) (x18 : (⟨S128, .f32⟩ : BufTy).Contents (Elt Ideal)) (x19 : (⟨S128, .f32⟩ : BufTy).Contents (Elt Ideal)) :
    val_main_v97 (F := Ideal) x0 x1 x2 x3 x12 x13 x14 x15 x17 x18 x19
      = updArr (x1 : S600000x128.Idx → EReal)
          (side3 (by rfl : 384 = 128 + 128 + 128) (val_main_v6 (F := Ideal) x0 x2 : S600000x128.Idx → EReal)
            (val_main_v13 (F := Ideal) x0 x3 : S600000x128.Idx → EReal) (x1 : S600000x128.Idx → EReal))
          x17 x12 (fun j => x13 (ix1 j)) x14 (fun c => x15 (ix1 c)) (fun c => x18 (ix1 c)) (fun c => x19 (ix1 c)) := by
  have h : val_main_v97 (F := Ideal) x0 x1 x2 x3 x12 x13 x14 x15 x17 x18 x19
      = hostUpd normE lanesE128 lanesE256 bcast_S_S600000x256 w128 wEps wZero x1 (val_main_v14 (F := Ideal) x0 x1 x2 x3) x17 x12 x13 x14 x15 x18 x19 := rfl
  rw [h, hostUpd_eq, edge_rows]

end Cert.ReferenceIdeal.RefValue

end
-- ==== Proof.KernelValue.lean ====
/-
  The idealized kernel's two results as functions of its arguments.

  Before the edge region the host operations narrow the node features and the weights (the identity on extended reals),
  gather the sender and receiver rows, and recast each bias, gain and offset vector as one row. So the arrays the edge
  region finds are the arguments themselves, the two gathers of the node features, and the vectors read as rows; by the
  region's whole-array statements its outputs are the reference's messages and new edge features. Between the regions
  the host scatter-adds the messages; the node region then finds the node features, that sum and the same weights, and its
  output is the reference's new node features. Nothing after the edge region writes the edge result.
-/
import proofs.«112847_j32109175505235_2_alg».proof.Proof.KernelRun
import proofs.«112847_j32109175505235_2_alg».proof.Proof.EdgeRegion
import proofs.«112847_j32109175505235_2_alg».proof.Proof.NodeRegion
import proofs.«112847_j32109175505235_2_alg».proof.Proof.RefSide
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.ValueIdx Idealize.ShloMosaic.StableHlo
open Cert.KernelIdeal Cert.KernelIdeal.Gen Cert.LibConcat3 Cert.GraphLayer

variable (m : (ℓ : Loc nD τ sig) → Buf (Elt Ideal) ℓ) (ρ : Dev nD → PrngReg)

/-- A vector `[C]` recast as one row `[1, C]` reads, at lane `j`, its entry `j`. -/
theorem row_of_vec {C : Nat} (b : (⟨1, ![C]⟩ : Shape).Idx → EReal) (hc : (⟨1, ![C]⟩ : Shape).ShapeCasts ⟨2, ![1, C]⟩) (j : Fin C) :
    shapeCast ⟨2, ![1, C]⟩ b hc (ix2 (0 : Fin 1) j) = b (ix1 j) := by
  refine shapeCast_apply b hc (ix2 (0 : Fin 1) j) (ix1 j) ?_
  rw [Shape.rowMajor_val_one, Shape.rowMajor_val_two]
  show j.val = 0 * C + j.val
  omega

/-! ## The host operations both programs share, spelled once -/

/-- Both programs name the same gather: whole rows of `[50000, 128]` through an index column. -/
theorem gather_rec : gather_S50000x128_S600000x1_S600000x128_1_0_n_n_0_1_1128
    = Cert.ReferenceIdeal.gather_S50000x128_S600000x1_S600000x128_1_0_n_n_0_1_1128 := rfl

/-- … and the same scatter-add of rows of `[600000, 128]` into `[50000, 128]`. -/
theorem scatter_rec : scatter_S50000x128_S600000x1_S600000x128_1_0_0_1
    = Cert.ReferenceIdeal.scatter_S50000x128_S600000x1_S600000x128_1_0_0_1 := rfl

/-- The index column of a gather: negative indices wrapped by 50000, then one column. -/
def idxCol (a : S600000.Idx → BitVec 32) : S600000x1.Idx → BitVec 32 :=
  broadcastInDim S600000x1 ![0] bcast_S600000_S600000x1_0
    (select (cmpi CmpIPredicate.slt a (broadcastInDim S600000 ![] bcast_S_S600000 (constantI S_ 32 0#32)))
      (addi a (broadcastInDim S600000 ![] bcast_S_S600000 (constantI S_ 32 50000#32))) a)

theorem idxCol_senders (a : S600000.Idx → BitVec 32) : idxCol a = Cert.ReferenceIdeal.Read.val_main_v5 (F := Ideal) a := rfl
theorem idxCol_receivers (a : S600000.Idx → BitVec 32) : idxCol a = Cert.ReferenceIdeal.Read.val_main_v12 (F := Ideal) a := rfl

/-- The kernel's gather of the narrowed node features is the reference's gather of the node features. -/
theorem gather_senders (x : S50000x128.Idx → EReal) (a : S600000.Idx → BitVec 32) :
    (Host.gather gather_S50000x128_S600000x1_S600000x128_1_0_n_n_0_1_1128
      (truncf (F := Ideal) (φ := .f32) FTy.bf16 x bitsLt_bf16_f32) (idxCol a) : S600000x128.Idx → EReal)
      = Cert.ReferenceIdeal.Read.val_main_v6 (F := Ideal) x a := by
  rw [idxCol_senders, gather_rec]
  rfl

theorem gather_receivers (x : S50000x128.Idx → EReal) (a : S600000.Idx → BitVec 32) :
    (Host.gather gather_S50000x128_S600000x1_S600000x128_1_0_n_n_0_1_1128
      (truncf (F := Ideal) (φ := .f32) FTy.bf16 x bitsLt_bf16_f32) (idxCol a) : S600000x128.Idx → EReal)
      = Cert.ReferenceIdeal.Read.val_main_v13 (F := Ideal) x a := by
  rw [idxCol_receivers, gather_rec]
  rfl

/-- The kernel's scatter-add of an array of messages is the reference's, when the messages are the reference's. -/
theorem scatter_msgs (x0 : S50000x128.Idx → EReal) (x1 : S600000x128.Idx → EReal) (x2 x3 : S600000.Idx → BitVec 32)
    (x4 : S384x256.Idx → EReal) (x5 : S256.Idx → EReal) (x6 : S256x128.Idx → EReal) (x7 : S128.Idx → EReal) :
    (Host.scatterAdd scatter_S50000x128_S600000x1_S600000x128_1_0_0_1
      (broadcastInDim S50000x128 ![] bcast_S_S50000x128 (constant (F := Ideal) S_ FTy.f32 0x00000000#32))
      (broadcastInDim S600000x1 ![0] bcast_S600000_S600000x1_0 x3)
      (Cert.ReferenceIdeal.Read.val_main_v23 (F := Ideal) x0 x1 x2 x3 x4 x5 x6 x7) : S50000x128.Idx → EReal)
      = Cert.ReferenceIdeal.Read.val_main_v26 (F := Ideal) x0 x1 x2 x3 x4 x5 x6 x7 := by
  rw [scatter_rec]
  rfl

/-! ## What the edge region finds -/

set_option maxHeartbeats 4000000 in
theorem in0_sf (c : Dev nD) : (V1 m ρ c main_v7 : S600000x128.Idx → EReal) = Cert.ReferenceIdeal.Read.val_main_v6 (F := Ideal) (m ((c : Thread nD τ).loc main_arg0)) (m ((c : Thread nD τ).loc main_arg2)) := by
  show StableHlo.after hostOps0 (W0 m ρ c) (Proc.devRef .tc main_v7) = _
  after_results
  exact gather_senders (m ((c : Thread nD τ).loc main_arg0)) (m ((c : Thread nD τ).loc main_arg2))

set_option maxHeartbeats 4000000 in
theorem in0_rf (c : Dev nD) : (V1 m ρ c main_v14 : S600000x128.Idx → EReal) = Cert.ReferenceIdeal.Read.val_main_v13 (F := Ideal) (m ((c : Thread nD τ).loc main_arg0)) (m ((c : Thread nD τ).loc main_arg3)) := by
  show StableHlo.after hostOps0 (W0 m ρ c) (Proc.devRef .tc main_v14) = _
  after_results
  exact gather_receivers (m ((c : Thread nD τ).loc main_arg0)) (m ((c : Thread nD τ).loc main_arg3))

theorem in0_ed (c : Dev nD) : (V1 m ρ c main_arg1 : S600000x128.Idx → EReal) = (m ((c : Thread nD τ).loc main_arg1)) :=
  StableHlo.after_of_forall_not_mem (b := Proc.devRef .tc main_arg1) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem in0_main_v15 (c : Dev nD) : (V1 m ρ c main_v15 : S384x256.Idx → EReal) = (m ((c : Thread nD τ).loc main_arg4)) := by
  show StableHlo.after hostOps0 (W0 m ρ c) (Proc.devRef .tc main_v15) = _
  after_results
  rfl

theorem in0_main_v16 (c : Dev nD) : (V1 m ρ c main_v16 : S256x128.Idx → EReal) = (m ((c : Thread nD τ).loc main_arg6)) := by
  show StableHlo.after hostOps0 (W0 m ρ c) (Proc.devRef .tc main_v16) = _
  after_results
  rfl

theorem in0_main_v17 (c : Dev nD) : (V1 m ρ c main_v17 : S384x256.Idx → EReal) = (m ((c : Thread nD τ).loc main_arg12)) := by
  show StableHlo.after hostOps0 (W0 m ρ c) (Proc.devRef .tc main_v17) = _
  after_results
  rfl

theorem in0_main_v18 (c : Dev nD) : (V1 m ρ c main_v18 : S256x128.Idx → EReal) = (m ((c : Thread nD τ).loc main_arg14)) := by
  show StableHlo.after hostOps0 (W0 m ρ c) (Proc.devRef .tc main_v18) = _
  after_results
  rfl

theorem in0_main_v22 (c : Dev nD) : (V1 m ρ c main_v22 : S128x128.Idx → EReal) = (m ((c : Thread nD τ).loc main_arg17)) := by
  show StableHlo.after hostOps0 (W0 m ρ c) (Proc.devRef .tc main_v22) = _
  after_results
  rfl

theorem in0_main_v23 (c : Dev nD) : (fun j : Fin 256 => (V1 m ρ c main_v23 : S1x256.Idx → EReal) (ix2 (0 : Fin 1) j)) = fun j => ((m ((c : Thread nD τ).loc main_arg5)) : S256.Idx → EReal) (ix1 j) := by
  have e : (V1 m ρ c main_v23 : S1x256.Idx → EReal) = shapeCast S1x256 ((m ((c : Thread nD τ).loc main_arg5)) : S256.Idx → EReal) shapeCasts_S256_S1x256 := by
    show StableHlo.after hostOps0 (W0 m ρ c) (Proc.devRef .tc main_v23) = _
    after_results
    rfl
  funext j
  rw [e]
  exact row_of_vec _ _ j

theorem in0_main_v24 (c : Dev nD) : (fun j : Fin 128 => (V1 m ρ c main_v24 : S1x128.Idx → EReal) (ix2 (0 : Fin 1) j)) = fun j => ((m ((c : Thread nD τ).loc main_arg7)) : S128.Idx → EReal) (ix1 j) := by
  have e : (V1 m ρ c main_v24 : S1x128.Idx → EReal) = shapeCast S1x128 ((m ((c : Thread nD τ).loc main_arg7)) : S128.Idx → EReal) shapeCasts_S128_S1x128 := by
    show StableHlo.after hostOps0 (W0 m ρ c) (Proc.devRef .tc main_v24) = _
    after_results
    rfl
  funext j
  rw [e]
  exact row_of_vec _ _ j

theorem in0_main_v25 (c : Dev nD) : (fun j : Fin 256 => (V1 m ρ c main_v25 : S1x256.Idx → EReal) (ix2 (0 : Fin 1) j)) = fun j => ((m ((c : Thread nD τ).loc main_arg13)) : S256.Idx → EReal) (ix1 j) := by
  have e : (V1 m ρ c main_v25 : S1x256.Idx → EReal) = shapeCast S1x256 ((m ((c : Thread nD τ).loc main_arg13)) : S256.Idx → EReal) shapeCasts_S256_S1x256 := by
    show StableHlo.after hostOps0 (W0 m ρ c) (Proc.devRef .tc main_v25) = _
    after_results
    rfl
  funext j
  rw [e]
  exact row_of_vec _ _ j

theorem in0_main_v26 (c : Dev nD) : (fun j : Fin 128 => (V1 m ρ c main_v26 : S1x128.Idx → EReal) (ix2 (0 : Fin 1) j)) = fun j => ((m ((c : Thread nD τ).loc main_arg15)) : S128.Idx → EReal) (ix1 j) := by
  have e : (V1 m ρ c main_v26 : S1x128.Idx → EReal) = shapeCast S1x128 ((m ((c : Thread nD τ).loc main_arg15)) : S128.Idx → EReal) shapeCasts_S128_S1x128 := by
    show StableHlo.after hostOps0 (W0 m ρ c) (Proc.devRef .tc main_v26) = _
    after_results
    rfl
  funext j
  rw [e]
  exact row_of_vec _ _ j

theorem in0_main_v29 (c : Dev nD) : (fun j : Fin 128 => (V1 m ρ c main_v29 : S1x128.Idx → EReal) (ix2 (0 : Fin 1) j)) = fun j => ((m ((c : Thread nD τ).loc main_arg18)) : S128.Idx → EReal) (ix1 j) := by
  have e : (V1 m ρ c main_v29 : S1x128.Idx → EReal) = shapeCast S1x128 ((m ((c : Thread nD τ).loc main_arg18)) : S128.Idx → EReal) shapeCasts_S128_S1x128 := by
    show StableHlo.after hostOps0 (W0 m ρ c) (Proc.devRef .tc main_v29) = _
    after_results
    rfl
  funext j
  rw [e]
  exact row_of_vec _ _ j

theorem in0_main_v30 (c : Dev nD) : (fun j : Fin 128 => (V1 m ρ c main_v30 : S1x128.Idx → EReal) (ix2 (0 : Fin 1) j)) = fun j => ((m ((c : Thread nD τ).loc main_arg19)) : S128.Idx → EReal) (ix1 j) := by
  have e : (V1 m ρ c main_v30 : S1x128.Idx → EReal) = shapeCast S1x128 ((m ((c : Thread nD τ).loc main_arg19)) : S128.Idx → EReal) shapeCasts_S128_S1x128 := by
    show StableHlo.after hostOps0 (W0 m ρ c) (Proc.devRef .tc main_v30) = _
    after_results
    rfl
  funext j
  rw [e]
  exact row_of_vec _ _ j

/-! ## The edge region's outputs -/

/-- After the edge region its first output array holds the reference's messages. -/
theorem msgs_result (c : Dev nD) :
    (W2 m ρ c (Proc.devRef .tc main_v31_0) : S600000x128.Idx → EReal)
      = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 14).trans ?_
  rw [Cert.KernelIdeal.EdgeRegion.final14 (V1 m ρ) c, Cert.ReferenceIdeal.RefValue.msgs_eq]
  unfold Cert.KernelIdeal.EdgeRegion.msgK
  rw [in0_sf, in0_rf, in0_ed, in0_main_v15, in0_main_v16, in0_main_v23, in0_main_v24]

/-- After the edge region its second output array holds the reference's new edge features. -/
theorem edges_at_exit (c : Dev nD) :
    (W2 m ρ c (Proc.devRef .tc main_v31_1) : S600000x128.Idx → EReal)
      = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (m ((c : Thread nD τ).loc main_arg14)) (m ((c : Thread nD τ).loc main_arg15)) (m ((c : Thread nD τ).loc main_arg17)) (m ((c : Thread nD τ).loc main_arg18)) (m ((c : Thread nD τ).loc main_arg19)) := by
  refine (W2_arr m ρ c 15).trans ?_
  rw [Cert.KernelIdeal.EdgeRegion.final15 (V1 m ρ) c, Cert.ReferenceIdeal.RefValue.edges_eq]
  unfold Cert.KernelIdeal.EdgeRegion.edgeK
  rw [in0_sf, in0_rf, in0_ed, in0_main_v22, in0_main_v17, in0_main_v25, in0_main_v18, in0_main_v26, in0_main_v29, in0_main_v30]

/-! ## What the node region finds -/

theorem in1_nd (c : Dev nD) : (V3 m ρ c main_arg0 : S50000x128.Idx → EReal) = (m ((c : Thread nD τ).loc main_arg0)) :=
  calc W3 m ρ c (Proc.devRef .tc main_arg0)
    _ = W2 m ρ c (Proc.devRef .tc main_arg0) := StableHlo.after_of_forall_not_mem (b := Proc.devRef .tc main_arg0) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = (m ((c : Thread nD τ).loc main_arg0)) := rfl

theorem at2_idx (c : Dev nD) : W2 m ρ c (Proc.devRef .tc main_arg3) = (m ((c : Thread nD τ).loc main_arg3)) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = (m ((c : Thread nD τ).loc main_arg3)) := rfl

/-- The scatter-added messages the node region finds are the reference's. -/
theorem in1_agg (c : Dev nD) :
    (V3 m ρ c main_v34 : S50000x128.Idx → EReal) = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v34) = _
  after_results
  rw [at2_idx, msgs_result]
  exact scatter_msgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem in1_main_v19 (c : Dev nD) : (V3 m ρ c main_v19 : S256x256.Idx → EReal) = (m ((c : Thread nD τ).loc main_arg8)) := by
  have e2 : W3 m ρ c (Proc.devRef .tc main_v19) = W2 m ρ c (Proc.devRef .tc main_v19) := StableHlo.after_of_forall_not_mem (b := Proc.devRef .tc main_v19) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  have e1 : W2 m ρ c (Proc.devRef .tc main_v19) = W1 m ρ c (Proc.devRef .tc main_v19) := W2_of_ne m ρ c main_v19 (by decide)
  refine (e2.trans e1).trans ?_
  show StableHlo.after hostOps0 (W0 m ρ c) (Proc.devRef .tc main_v19) = _
  after_results
  rfl

theorem in1_main_v20 (c : Dev nD) : (V3 m ρ c main_v20 : S256x128.Idx → EReal) = (m ((c : Thread nD τ).loc main_arg10)) := by
  have e2 : W3 m ρ c (Proc.devRef .tc main_v20) = W2 m ρ c (Proc.devRef .tc main_v20) := StableHlo.after_of_forall_not_mem (b := Proc.devRef .tc main_v20) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  have e1 : W2 m ρ c (Proc.devRef .tc main_v20) = W1 m ρ c (Proc.devRef .tc main_v20) := W2_of_ne m ρ c main_v20 (by decide)
  refine (e2.trans e1).trans ?_
  show StableHlo.after hostOps0 (W0 m ρ c) (Proc.devRef .tc main_v20) = _
  after_results
  rfl

theorem in1_main_v21 (c : Dev nD) : (V3 m ρ c main_v21 : S128x128.Idx → EReal) = (m ((c : Thread nD τ).loc main_arg16)) := by
  have e2 : W3 m ρ c (Proc.devRef .tc main_v21) = W2 m ρ c (Proc.devRef .tc main_v21) := StableHlo.after_of_forall_not_mem (b := Proc.devRef .tc main_v21) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  have e1 : W2 m ρ c (Proc.devRef .tc main_v21) = W1 m ρ c (Proc.devRef .tc main_v21) := W2_of_ne m ρ c main_v21 (by decide)
  refine (e2.trans e1).trans ?_
  show StableHlo.after hostOps0 (W0 m ρ c) (Proc.devRef .tc main_v21) = _
  after_results
  rfl

theorem in1_main_v27 (c : Dev nD) : (fun j : Fin 256 => (V3 m ρ c main_v27 : S1x256.Idx → EReal) (ix2 (0 : Fin 1) j)) = fun j => ((m ((c : Thread nD τ).loc main_arg9)) : S256.Idx → EReal) (ix1 j) := by
  have e2 : W3 m ρ c (Proc.devRef .tc main_v27) = W2 m ρ c (Proc.devRef .tc main_v27) := StableHlo.after_of_forall_not_mem (b := Proc.devRef .tc main_v27) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  have e1 : W2 m ρ c (Proc.devRef .tc main_v27) = W1 m ρ c (Proc.devRef .tc main_v27) := W2_of_ne m ρ c main_v27 (by decide)
  have e : (V3 m ρ c main_v27 : S1x256.Idx → EReal) = shapeCast S1x256 ((m ((c : Thread nD τ).loc main_arg9)) : S256.Idx → EReal) shapeCasts_S256_S1x256 := by
    refine (e2.trans e1).trans ?_
    show StableHlo.after hostOps0 (W0 m ρ c) (Proc.devRef .tc main_v27) = _
    after_results
    rfl
  funext j
  rw [e]
  exact row_of_vec _ _ j

theorem in1_main_v28 (c : Dev nD) : (fun j : Fin 128 => (V3 m ρ c main_v28 : S1x128.Idx → EReal) (ix2 (0 : Fin 1) j)) = fun j => ((m ((c : Thread nD τ).loc main_arg11)) : S128.Idx → EReal) (ix1 j) := by
  have e2 : W3 m ρ c (Proc.devRef .tc main_v28) = W2 m ρ c (Proc.devRef .tc main_v28) := StableHlo.after_of_forall_not_mem (b := Proc.devRef .tc main_v28) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  have e1 : W2 m ρ c (Proc.devRef .tc main_v28) = W1 m ρ c (Proc.devRef .tc main_v28) := W2_of_ne m ρ c main_v28 (by decide)
  have e : (V3 m ρ c main_v28 : S1x128.Idx → EReal) = shapeCast S1x128 ((m ((c : Thread nD τ).loc main_arg11)) : S128.Idx → EReal) shapeCasts_S128_S1x128 := by
    refine (e2.trans e1).trans ?_
    show StableHlo.after hostOps0 (W0 m ρ c) (Proc.devRef .tc main_v28) = _
    after_results
    rfl
  funext j
  rw [e]
  exact row_of_vec _ _ j

theorem in1_main_v29 (c : Dev nD) : (fun j : Fin 128 => (V3 m ρ c main_v29 : S1x128.Idx → EReal) (ix2 (0 : Fin 1) j)) = fun j => ((m ((c : Thread nD τ).loc main_arg18)) : S128.Idx → EReal) (ix1 j) := by
  have e2 : W3 m ρ c (Proc.devRef .tc main_v29) = W2 m ρ c (Proc.devRef .tc main_v29) := StableHlo.after_of_forall_not_mem (b := Proc.devRef .tc main_v29) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  have e1 : W2 m ρ c (Proc.devRef .tc main_v29) = W1 m ρ c (Proc.devRef .tc main_v29) :=
    (W2_arr m ρ c 12).trans (((dat0 (V1 m ρ) c).arrAt_in 12 rfl _).trans (A_eq0 (V1 m ρ) c 12))
  have e : (V3 m ρ c main_v29 : S1x128.Idx → EReal) = shapeCast S1x128 ((m ((c : Thread nD τ).loc main_arg18)) : S128.Idx → EReal) shapeCasts_S128_S1x128 := by
    refine (e2.trans e1).trans ?_
    show StableHlo.after hostOps0 (W0 m ρ c) (Proc.devRef .tc main_v29) = _
    after_results
    rfl
  funext j
  rw [e]
  exact row_of_vec _ _ j

theorem in1_main_v30 (c : Dev nD) : (fun j : Fin 128 => (V3 m ρ c main_v30 : S1x128.Idx → EReal) (ix2 (0 : Fin 1) j)) = fun j => ((m ((c : Thread nD τ).loc main_arg19)) : S128.Idx → EReal) (ix1 j) := by
  have e2 : W3 m ρ c (Proc.devRef .tc main_v30) = W2 m ρ c (Proc.devRef .tc main_v30) := StableHlo.after_of_forall_not_mem (b := Proc.devRef .tc main_v30) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
  have e1 : W2 m ρ c (Proc.devRef .tc main_v30) = W1 m ρ c (Proc.devRef .tc main_v30) :=
    (W2_arr m ρ c 13).trans (((dat0 (V1 m ρ) c).arrAt_in 13 rfl _).trans (A_eq0 (V1 m ρ) c 13))
  have e : (V3 m ρ c main_v30 : S1x128.Idx → EReal) = shapeCast S1x128 ((m ((c : Thread nD τ).loc main_arg19)) : S128.Idx → EReal) shapeCasts_S128_S1x128 := by
    refine (e2.trans e1).trans ?_
    show StableHlo.after hostOps0 (W0 m ρ c) (Proc.devRef .tc main_v30) = _
    after_results
    rfl
  funext j
  rw [e]
  exact row_of_vec _ _ j

/-! ## The two results -/

/-- The node result: the node region's output array after all its write-backs is the reference's new node features. -/
theorem node_result (c : Dev nD) :
    (W4 m ρ c (Proc.devRef .tc main_v35) : S50000x128.Idx → EReal)
      = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg18)) (m ((c : Thread nD τ).loc main_arg19)) := by
  refine (W4_arr m ρ c 9).trans ?_
  rw [Cert.KernelIdeal.NodeRegion.final9 (V3 m ρ) c, Cert.ReferenceIdeal.RefValue.nodes_eq]
  unfold Cert.KernelIdeal.NodeRegion.nodeK
  rw [in1_nd, in1_agg, in1_main_v21, in1_main_v19, in1_main_v27, in1_main_v20, in1_main_v28, in1_main_v29, in1_main_v30]

/-- The edge result: nothing after the edge region writes it, so it is the edge region's second output array. -/
theorem edge_result (c : Dev nD) :
    (W4 m ρ c (Proc.devRef .tc main_v31_1) : S600000x128.Idx → EReal)
      = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (m ((c : Thread nD τ).loc main_arg14)) (m ((c : Thread nD τ).loc main_arg15)) (m ((c : Thread nD τ).loc main_arg17)) (m ((c : Thread nD τ).loc main_arg18)) (m ((c : Thread nD τ).loc main_arg19)) :=
  calc W4 m ρ c (Proc.devRef .tc main_v31_1)
    _ = W3 m ρ c (Proc.devRef .tc main_v31_1) := W4_of_ne m ρ c main_v31_1 (by decide)
    _ = W2 m ρ c (Proc.devRef .tc main_v31_1) := StableHlo.after_of_forall_not_mem (b := Proc.devRef .tc main_v31_1) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = _ := edges_at_exit m ρ c

end Cert.KernelIdeal.KernelValue

end
-- ==== Proof.lean ====
/-
  One message-passing layer of a graph network: the tiled kernel against the plain reference, at the ideal instance.

  Both programs compute, for every edge, the two-layer perceptron of (sender features, receiver features, edge features)
  — the message — and the layer normalisation of `edge · We + perceptron'(same row)` — the new edge features; they sum the
  messages into their receiving nodes; and for every node they compute the layer normalisation of
  `node · Wn + perceptron''(node features, summed messages)`. The kernel narrows its matrix operands to bf16 (the identity on
  extended reals), gathers and scatter-adds on the host exactly as the reference does, and runs the perceptrons, the
  residual products and the normalisations in two tiled regions, 2000 rows to a block. Row by row the two programs apply
  the same operations in the same order — `Σ_k x_k · w_kc + b_c`, a maximum with the word of `0.0`, a mean as a sum divided by
  the word of `128.0`, a reciprocal square root of the variance plus the same word near `1e-6` — so no law of the extended
  reals beyond `0 + s = s` and re-indexing a finite sum is used, and the precondition is never opened.

  The frames of the two kernel programs are the generated ones; the reference's frame is its generated run with the
  results dropped; the idealization rewrote nothing, so `preserves` is `True`. For the value claim the kernel's run is
  stated with its two results named (KernelRun), each region's output array is read as one whole-array function of what
  the region finds (EdgeRegion, NodeRegion), what each region finds is read off the host operations (KernelValue), and the
  reference's results are read as the same functions (RefSide).
-/
import proofs.«112847_j32109175505235_2_alg».proof.Defs
import proofs.«112847_j32109175505235_2_alg».proof.Proof.Gen.Kernel
import proofs.«112847_j32109175505235_2_alg».proof.Proof.Gen.Kernel.Skeleton
import proofs.«112847_j32109175505235_2_alg».proof.Proof.Gen.Kernel.Launch
import proofs.«112847_j32109175505235_2_alg».proof.Proof.Gen.Kernel.Points
import proofs.«112847_j32109175505235_2_alg».proof.Proof.Gen.Kernel.Frame
import proofs.«112847_j32109175505235_2_alg».proof.Proof.Gen.KernelIdeal
import proofs.«112847_j32109175505235_2_alg».proof.Proof.Gen.KernelIdeal.Skeleton
import proofs.«112847_j32109175505235_2_alg».proof.Proof.Gen.KernelIdeal.Launch
import proofs.«112847_j32109175505235_2_alg».proof.Proof.Gen.KernelIdeal.Points
import proofs.«112847_j32109175505235_2_alg».proof.Proof.Gen.KernelIdeal.Frame
import proofs.«112847_j32109175505235_2_alg».proof.Proof.Gen.ReferenceIdeal
import proofs.«112847_j32109175505235_2_alg».proof.Proof.Gen.ReferenceIdeal.Run
import proofs.«112847_j32109175505235_2_alg».proof.Proof.Gen.ReferenceIdeal.Read
import proofs.«112847_j32109175505235_2_alg».proof.Proof.Gen.Pre_finite_inputs
import proofs.«112847_j32109175505235_2_alg».proof.Proof.RefRead
import proofs.«112847_j32109175505235_2_alg».proof.Proof.KernelRun
import proofs.«112847_j32109175505235_2_alg».proof.Proof.KernelValue
import proofs.«112847_j32109175505235_2_alg».proof.Proof.RefSide
import Idealize.ShloMosaic.Adequacy
import Idealize.ShloMosaic.Init

set_option maxRecDepth 16384

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs end with the same new node features and the same new edge
    features: the reference's own composed terms of the arguments, which the kernel's two regions reproduce. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg16)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.KernelValue.node_result m ρ c),
        (h c).2.1.trans (Cert.KernelIdeal.KernelValue.edge_result m ρ c), (h c).2.2⟩)
      (Cert.KernelIdeal.ValueRun.run_last (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18, h19⟩ := hagree c
      rw [Cert.ReferenceIdeal.Read.val_main_v62_eq, h0, h1, h2, h3, h4, h5, h6, h7, h8, h9, h10, h11, h16, h18, h19]
    · obtain ⟨h0, h1, h2, h3, h4, h5, h6, h7, h8, h9, h10, h11, h12, h13, h14, h15, h16, h17, h18, h19⟩ := hagree c
      rw [Cert.ReferenceIdeal.Read.val_main_v97_eq, h0, h1, h2, h3, h12, h13, h14, h15, h17, h18, h19]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
